-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S10000 : Shape := ⟨1, ![10000]⟩
abbrev S10000x1 : Shape := ⟨2, ![10000, 1]⟩

abbrev nBuf : Space → Nat
  | .hbm => 118
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1x64, .f32⟩
  | .hbm, ⟨51, _⟩ => ⟨S100000x64, .f32⟩
  | .hbm, ⟨52, _⟩ => ⟨S_, .f32⟩
  | .hbm, ⟨53, _⟩ => ⟨S64, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x1, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S_, .f32⟩
  | .hbm, ⟨75, _⟩ => ⟨S64, .f32⟩
  | .hbm, ⟨76, _⟩ => ⟨S1x64, .f32⟩
  | .hbm, ⟨77, _⟩ => ⟨S100000x64, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x64, .f32⟩
  | .hbm, ⟨87, _⟩ => ⟨S1700000x1, .f32⟩
  | .hbm, ⟨88, _⟩ => ⟨S1700000x64, .f32⟩
  | .hbm, ⟨89, _⟩ => ⟨S1700000x64, .f32⟩
  | .hbm, ⟨90, _⟩ => ⟨S_, .f32⟩
  | .hbm, ⟨91, _⟩ => ⟨S100000x64, .f32⟩
  | .hbm, ⟨92, _⟩ => ⟨S1700000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S_, .f32⟩
  | .hbm, ⟨97, _⟩ => ⟨S64, .f32⟩
  | .hbm, ⟨98, _⟩ => ⟨S1x64, .f32⟩
  | .hbm, ⟨99, _⟩ => ⟨S100000x64, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x64, .f32⟩
  | .hbm, ⟨109, _⟩ => ⟨S1700000x1, .f32⟩
  | .hbm, ⟨110, _⟩ => ⟨S1700000x64, .f32⟩
  | .hbm, ⟨111, _⟩ => ⟨S1700000x64, .f32⟩
  | .hbm, ⟨112, _⟩ => ⟨S_, .f32⟩
  | .hbm, ⟨113, _⟩ => ⟨S100000x64, .f32⟩
  | .hbm, ⟨114, _⟩ => ⟨S1700000x1, .i32⟩
  | .hbm, ⟨115, _⟩ => ⟨S100000x64, .f32⟩
  | .hbm, ⟨116, _⟩ => ⟨S1x64, .f32⟩
  | .hbm, ⟨117, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S64 : S_.BroadcastsInDim S64 (![] : Fin 0 → Fin S64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reduces_S10000x64_S10000 : S10000x64.Reduces [1] S10000
  shapeCasts_S10000_S10000x1 : S10000.ShapeCasts S10000x1
  broadcasts_S10000x1_S10000x64 : S10000x1.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v67) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S100000x1 : Shape := ⟨2, ![100000, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S1x64, .f32⟩
  | 52 => ⟨S100000x64, .f32⟩
  | 53 => ⟨S100000x64, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x1, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S100000x64, .f32⟩
  | 121 => ⟨S_, .f32⟩
  | 122 => ⟨S100000, .f32⟩
  | 123 => ⟨S100000x1, .f32⟩
  | 124 => ⟨S100000x1, .f32⟩
  | 125 => ⟨S_, .f32⟩
  | 126 => ⟨S100000x1, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call3_v0 : Ref sig .tc := ⟨.hbm, 120, rfl⟩
abbrev main_call3_cst : Ref sig .tc := ⟨.hbm, 121, rfl⟩
abbrev main_call3_v1 : Ref sig .tc := ⟨.hbm, 122, rfl⟩
abbrev main_call3_v2 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RunAll.lean ====
/-
  The idealized kernel's run, with every buffer it leaves named.
  The program is seven kernel launches among stretches of host operations. The generated frame module
  names the buffer contents at each boundary — a fold from the launch memory: a stretch of host operations
  maps the contents through its operations, a launch replaces its arrays by what its write-backs leave — and
  proves that every weakly fair execution terminates without fault. Its own conclusion keeps only the
  argument arrays; here the same launch theorem is applied to the same segments with the conclusion kept
  whole: at the end EVERY unscoped buffer holds the last boundary's contents.
-/
import proofs.«152028_j26912265077117_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer of every core ends at the
    last boundary's contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The result array is an unscoped buffer, so the run leaves it at the last boundary's contents; the argument arrays
    end as launched. -/
theorem run_result : θ_run defs (onTc (τ := τ) (main (F := F))) ⟨m, fun _ => 0, ρ⟩ (fun r => ∀ c : Dev nD,
      r.2.mem ((c.tc : Thread nD τ).loc main_v85) = W16 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v85 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)
    (run_all m ρ)

end Cert.KernelIdeal.RunValue

end
-- ==== Proof.Keep.lean ====
/-
  Which buffers survive which boundaries of the idealized kernel's run.
  The argument arrays are written by no host operation and by no launch, and the three arrays derived from the
  edge list (the source and destination columns with the self loops appended, and the per-edge normalisation
  factor) are written once, before the first launch, and only read afterwards. So a read of one of them at a later
  boundary is a read at an earlier one: each step back is either "this stretch of host operations does not write
  it" or "it is not one of this launch's arrays".
-/
import proofs.«152028_j26912265077117_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

/-- A stretch of host operations leaves a buffer alone when none of its operations writes it: the written
    buffers are listed, and the buffer differs from each. -/
macro "host_keep " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem keep_main_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0

theorem keep_main_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0

theorem keep_main_arg3_2_0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := by host_keep hostOps0_1
    _ = W0 m ρ c (Proc.devRef .tc main_arg3) := by host_keep hostOps0

theorem keep_main_arg4_5_0 (c : Dev nD) : W5 m ρ c (Proc.devRef .tc main_arg4) = W0 m ρ c (Proc.devRef .tc main_arg4) :=
  calc W5 m ρ c (Proc.devRef .tc main_arg4)
    _ = W4 m ρ c (Proc.devRef .tc main_arg4) := by host_keep hostOps1
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0

theorem keep_main_arg5_6_0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0

theorem keep_main_arg6_9_0 (c : Dev nD) : W9 m ρ c (Proc.devRef .tc main_arg6) = W0 m ρ c (Proc.devRef .tc main_arg6) :=
  calc W9 m ρ c (Proc.devRef .tc main_arg6)
    _ = W8 m ρ c (Proc.devRef .tc main_arg6) := by host_keep hostOps3
    _ = W7 m ρ c (Proc.devRef .tc main_arg6) := W8_of_ne m ρ c main_arg6 (by decide)
    _ = W6 m ρ c (Proc.devRef .tc main_arg6) := by host_keep hostOps2
    _ = W5 m ρ c (Proc.devRef .tc main_arg6) := W6_of_ne m ρ c main_arg6 (by decide)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0

theorem keep_main_arg7_10_0 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keep hostOps3
    _ = W7 m ρ c (Proc.devRef .tc main_arg7) := W8_of_ne m ρ c main_arg7 (by decide)
    _ = W6 m ρ c (Proc.devRef .tc main_arg7) := by host_keep hostOps2
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0

theorem keep_main_arg8_13_0 (c : Dev nD) : W13 m ρ c (Proc.devRef .tc main_arg8) = W0 m ρ c (Proc.devRef .tc main_arg8) :=
  calc W13 m ρ c (Proc.devRef .tc main_arg8)
    _ = W12 m ρ c (Proc.devRef .tc main_arg8) := by host_keep hostOps5
    _ = W11 m ρ c (Proc.devRef .tc main_arg8) := W12_of_ne m ρ c main_arg8 (by decide)
    _ = W10 m ρ c (Proc.devRef .tc main_arg8) := by host_keep hostOps4
    _ = W9 m ρ c (Proc.devRef .tc main_arg8) := W10_of_ne m ρ c main_arg8 (by decide)
    _ = W8 m ρ c (Proc.devRef .tc main_arg8) := by host_keep hostOps3
    _ = W7 m ρ c (Proc.devRef .tc main_arg8) := W8_of_ne m ρ c main_arg8 (by decide)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0

theorem keep_main_arg9_14_0 (c : Dev nD) : W14 m ρ c (Proc.devRef .tc main_arg9) = W0 m ρ c (Proc.devRef .tc main_arg9) :=
  calc W14 m ρ c (Proc.devRef .tc main_arg9)
    _ = W13 m ρ c (Proc.devRef .tc main_arg9) := W14_of_ne m ρ c main_arg9 (by decide)
    _ = W12 m ρ c (Proc.devRef .tc main_arg9) := by host_keep hostOps5
    _ = W11 m ρ c (Proc.devRef .tc main_arg9) := W12_of_ne m ρ c main_arg9 (by decide)
    _ = W10 m ρ c (Proc.devRef .tc main_arg9) := by host_keep hostOps4
    _ = W9 m ρ c (Proc.devRef .tc main_arg9) := W10_of_ne m ρ c main_arg9 (by decide)
    _ = W8 m ρ c (Proc.devRef .tc main_arg9) := by host_keep hostOps3
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0

theorem keep_main_v3_6_3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)

theorem keep_main_v3_10_3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps3
    _ = W7 m ρ c (Proc.devRef .tc main_v3) := W8_of_ne m ρ c main_v3 (by decide)
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)

theorem keep_main_v3_14_3 (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := by host_keep hostOps5
    _ = W11 m ρ c (Proc.devRef .tc main_v3) := W12_of_ne m ρ c main_v3 (by decide)
    _ = W10 m ρ c (Proc.devRef .tc main_v3) := by host_keep hostOps4
    _ = W9 m ρ c (Proc.devRef .tc main_v3) := W10_of_ne m ρ c main_v3 (by decide)
    _ = W8 m ρ c (Proc.devRef .tc main_v3) := by host_keep hostOps3
    _ = W7 m ρ c (Proc.devRef .tc main_v3) := W8_of_ne m ρ c main_v3 (by decide)
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)

theorem keep_main_v6_6_3 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_main_v6_10_3 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_keep hostOps3
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_main_v6_14_3 (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by host_keep hostOps5
    _ = W11 m ρ c (Proc.devRef .tc main_v6) := W12_of_ne m ρ c main_v6 (by decide)
    _ = W10 m ρ c (Proc.devRef .tc main_v6) := by host_keep hostOps4
    _ = W9 m ρ c (Proc.devRef .tc main_v6) := W10_of_ne m ρ c main_v6 (by decide)
    _ = W8 m ρ c (Proc.devRef .tc main_v6) := by host_keep hostOps3
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_main_v29_6_3 (c : Dev nD) : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

theorem keep_main_v29_10_3 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := by host_keep hostOps3
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

theorem keep_main_v29_14_3 (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := by host_keep hostOps5
    _ = W11 m ρ c (Proc.devRef .tc main_v29) := W12_of_ne m ρ c main_v29 (by decide)
    _ = W10 m ρ c (Proc.devRef .tc main_v29) := by host_keep hostOps4
    _ = W9 m ρ c (Proc.devRef .tc main_v29) := W10_of_ne m ρ c main_v29 (by decide)
    _ = W8 m ρ c (Proc.devRef .tc main_v29) := by host_keep hostOps3
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

end Cert.KernelIdeal.Keep

end
-- ==== Proof.LibTypedRef.lean ====
/-
  Typed references: a value stored through a typed reference and read back through the same reference.

  A module-local function's body is printed over typed references: each carries a buffer and the proof that the buffer's
  type is the value's, and contents pass to and from the buffer by transport along that proof. Read at once, a line of such
  operations leaves a transport pair around every intermediate value. The pair cancels, for any signature and any values.
-/
import Idealize.ShloMosaic.Lib.StableHlo

noncomputable section

namespace Cert.TypedRef

open Idealize.ShloMosaic Idealize.ShloMosaic.StableHlo

/-- A value written to a typed reference's buffer and read back through the same reference is the value. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.TypedRef

end
-- ==== Proof.KPrelude.lean ====
/-
  The edge list's derived arrays in the idealized kernel's run, named.
  Before its first launch the kernel's host code turns the edge list into three arrays that every later
  aggregation reads: the source column and the destination column, each with one self loop per node appended,
  and the per-edge factor 1/sqrt(deg(src)) · 1/sqrt(deg(dst)), the degree being the number of edges arriving at
  a node (zero degree giving the factor zero). The reference computes the same three arrays by the same
  operations; here each is shown to BE the reference's stage, read at the first launch's entry.
-/
import proofs.«152028_j26912265077117_1_alg».proof.Proof.Gen.KernelIdeal.Frame
import proofs.«152028_j26912265077117_1_alg».proof.Proof.Keep
import proofs.«152028_j26912265077117_1_alg».proof.Proof.RefReadP
import proofs.«152028_j26912265077117_1_alg».proof.Proof.LibTypedRef
import Idealize.ShloMosaic.Lib.StableHlo.Run
import Idealize.ShloMosaic.Lib.ValueLayout
import Idealize.ShloMosaic.PureOps.Ideal

set_option maxRecDepth 16384

noncomputable section

namespace Cert.KernelIdeal.Prelude

open Idealize.ShloMosaic Idealize.ShloMosaic.TcCoe Idealize.ShloMosaic.ValueIdx Idealize.SL.Sem Idealize.ShloMosaic.StableHlo
open Cert.KernelIdeal Cert.KernelIdeal.Gen Cert.KernelIdeal.Keep
open Cert.ReferenceIdeal.ReadP

variable (m : (ℓ : Loc nD τ sig) → Buf (Elt Ideal) ℓ) (ρ : Dev nD → PrngReg) (c : Dev nD)

/-! ## After the first stretch: the two columns, the degree's two uses, the zero -/

theorem src_W1 : W1 m ρ c (Proc.devRef .tc main_v3) = val_main_v3 (F := Ideal) (m ((c : Thread nD τ).loc main_arg1)) := by
  show StableHlo.after hostOps0 (W0 m ρ c) (Proc.devRef .tc main_v3) = _
  after_results
  all_goals rfl

theorem dst_W1 : W1 m ρ c (Proc.devRef .tc main_v6) = val_main_v6 (F := Ideal) (m ((c : Thread nD τ).loc main_arg1)) := by
  show StableHlo.after hostOps0 (W0 m ρ c) (Proc.devRef .tc main_v6) = _
  after_results
  all_goals rfl

theorem positive_W1 : W1 m ρ c (Proc.devRef .tc main_v12) = val_main_v12 (F := Ideal) (m ((c : Thread nD τ).loc main_arg1)) := by
  show StableHlo.after hostOps0 (W0 m ρ c) (Proc.devRef .tc main_v12) = _
  after_results
  all_goals rfl

theorem rsqrt_W1 : W1 m ρ c (Proc.devRef .tc main_v13) = val_main_v13 (F := Ideal) (m ((c : Thread nD τ).loc main_arg1)) := by
  show StableHlo.after hostOps0 (W0 m ρ c) (Proc.devRef .tc main_v13) = _
  after_results
  all_goals rfl

theorem zero_W1 : W1 m ρ c (Proc.devRef .tc main_cst_2) = val_main_cst_2 (F := Ideal) := by
  show StableHlo.after hostOps0 (W0 m ρ c) (Proc.devRef .tc main_cst_2) = _
  after_results
  all_goals rfl

/-! ## After the second stretch: the inverse square root of the degree, zero where the degree is zero -/

theorem dinv_W2 : W2 m ρ c (Proc.devRef .tc main_v14) = val_main_v14 (F := Ideal) (m ((c : Thread nD τ).loc main_arg1)) := by
  have key : ∀ Vv : Valuation τ sig (Elt Ideal),
      Vv (Proc.devRef .tc main_v12) = val_main_v12 (F := Ideal) (m ((c : Thread nD τ).loc main_arg1)) →
      Vv (Proc.devRef .tc main_v13) = val_main_v13 (F := Ideal) (m ((c : Thread nD τ).loc main_arg1)) →
      Vv (Proc.devRef .tc main_cst_2) = val_main_cst_2 (F := Ideal) →
      StableHlo.after hostOps0_1 Vv (Proc.devRef .tc main_v14) = val_main_v14 (F := Ideal) (m ((c : Thread nD τ).loc main_arg1)) := by
    intro Vv h12 h13 hz
    after_results_simp
    rw [h12, h13, hz]
    simp only [Cert.TypedRef.ofBuf_toBuf]
    -- a transport along an equation between two spellings of ONE type is the identity
    have c12 : ∀ A : (⟨S100000, .i1⟩ : BufTy).Contents (Elt Ideal),
        (TRef.of (sig := sig) (T := ⟨S100000, .i1⟩) main_v12).ofBuf A = A := fun A => eq_of_heq (cast_heq _ _)
    have c13 : ∀ A : (⟨S100000, .f32⟩ : BufTy).Contents (Elt Ideal),
        (TRef.of (sig := sig) (T := ⟨S100000, .f32⟩) main_v13).ofBuf A = A := fun A => eq_of_heq (cast_heq _ _)
    have cz : ∀ A : (⟨S_, .f32⟩ : BufTy).Contents (Elt Ideal),
        (TRef.of (sig := sig) (T := ⟨S_, .f32⟩) main_cst_2).ofBuf A = A := fun A => eq_of_heq (cast_heq _ _)
    have c14 : ∀ A : (⟨S100000, .f32⟩ : BufTy).Contents (Elt Ideal),
        (TRef.of (sig := sig) (T := ⟨S100000, .f32⟩) main_v14).toBuf A = A := fun A => eq_of_heq (cast_heq _ _)
    rw [c12, c13, cz, c14]
    rfl
  exact key (W1 m ρ c) (positive_W1 m ρ c) (rsqrt_W1 m ρ c) (zero_W1 m ρ c)

theorem src_W2 : W2 m ρ c (Proc.devRef .tc main_v3) = val_main_v3 (F := Ideal) (m ((c : Thread nD τ).loc main_arg1)) :=
  (show W2 m ρ c (Proc.devRef .tc main_v3) = W1 m ρ c (Proc.devRef .tc main_v3) from by host_keep hostOps0_1).trans (src_W1 m ρ c)

theorem dst_W2 : W2 m ρ c (Proc.devRef .tc main_v6) = val_main_v6 (F := Ideal) (m ((c : Thread nD τ).loc main_arg1)) :=
  (show W2 m ρ c (Proc.devRef .tc main_v6) = W1 m ρ c (Proc.devRef .tc main_v6) from by host_keep hostOps0_1).trans (dst_W1 m ρ c)

/-! ## At the first launch's entry: the per-edge factor, the two columns, and the first bias as a row -/

theorem norm_W3 : W3 m ρ c (Proc.devRef .tc main_v29) = val_main_v29 (F := Ideal) (m ((c : Thread nD τ).loc main_arg1)) := by
  have key : ∀ Vv : Valuation τ sig (Elt Ideal),
      Vv (Proc.devRef .tc main_v14) = val_main_v14 (F := Ideal) (m ((c : Thread nD τ).loc main_arg1)) →
      Vv (Proc.devRef .tc main_v3) = val_main_v3 (F := Ideal) (m ((c : Thread nD τ).loc main_arg1)) →
      Vv (Proc.devRef .tc main_v6) = val_main_v6 (F := Ideal) (m ((c : Thread nD τ).loc main_arg1)) →
      StableHlo.after hostOps0_2 Vv (Proc.devRef .tc main_v29) = val_main_v29 (F := Ideal) (m ((c : Thread nD τ).loc main_arg1)) := by
    intro Vv h14 h3 h6
    after_results_simp
    rw [h14, h3, h6]
    rfl
  exact key (W2 m ρ c) (dinv_W2 m ρ c) (src_W2 m ρ c) (dst_W2 m ρ c)

theorem src_W3 : W3 m ρ c (Proc.devRef .tc main_v3) = val_main_v3 (F := Ideal) (m ((c : Thread nD τ).loc main_arg1)) :=
  (show W3 m ρ c (Proc.devRef .tc main_v3) = W2 m ρ c (Proc.devRef .tc main_v3) from by host_keep hostOps0_2).trans (src_W2 m ρ c)

theorem dst_W3 : W3 m ρ c (Proc.devRef .tc main_v6) = val_main_v6 (F := Ideal) (m ((c : Thread nD τ).loc main_arg1)) :=
  (show W3 m ρ c (Proc.devRef .tc main_v6) = W2 m ρ c (Proc.devRef .tc main_v6) from by host_keep hostOps0_2).trans (dst_W2 m ρ c)

/-- The first layer's bias, laid out as a one-row matrix, reads at (0, q) the bias at q. -/
theorem bias_W3 (q : Fin 64) :
    W3 m ρ c (Proc.devRef .tc main_v30) (ix2 (0 : Fin 1) q) = m ((c : Thread nD τ).loc main_arg3) (ix1 q) := by
  have key : ∀ Vv : Valuation τ sig (Elt Ideal),
      StableHlo.after hostOps0_2 Vv (Proc.devRef .tc main_v30) = shapeCast S1x64 (Vv (Proc.devRef .tc main_arg3)) shapeCasts_S64_S1x64 := by
    intro Vv
    after_results_simp
    rfl
  have h : W3 m ρ c (Proc.devRef .tc main_v30) = shapeCast S1x64 (W2 m ρ c (Proc.devRef .tc main_arg3)) shapeCasts_S64_S1x64 :=
    key (W2 m ρ c)
  rw [h, shapeCast_a_1a_apply, keep_main_arg3_2_0]
  all_goals rfl

end Cert.KernelIdeal.Prelude

end
-- ==== Proof.Spec.lean ====
/-
  The four entry-wise functions a graph-convolution network's dense stages compute on the extended reals.
  Every dense stage of both programs is one of them at each entry:
  a dot product of a feature row with a weight column (with or without a bias), a bias followed by the
  positive part, and a row divided by its Euclidean length, the length clipped below by a small constant.
  Nothing here mentions a program: the two programs are each shown to compute these, entry by entry.
-/
import Idealize.ShloMosaic.PureOps.Ideal
import Idealize.ShloMosaic.Lib.ValueIdx

noncomputable section

namespace Cert.GcnSpec

open Idealize.ShloMosaic

/-- The dot product of a row `x` with a column `w` over the shared axis. -/
def dotRow {K : ℕ} (x w : Fin K → EReal) : EReal := ∑ k, x k * w k

/-- One entry of a dense layer: the dot product of a row with a column, plus that column's bias. -/
def dense {K : ℕ} (x w : Fin K → EReal) (b : EReal) : EReal := dotRow x w + b

/-- A dense layer with the zero bias is the bare dot product: `a + 0 = a` holds at every extended real. -/
theorem dense_zero {K : ℕ} (x w : Fin K → EReal) : dense x w 0 = dotRow x w := add_zero _

/-- A bias added, then the positive part. -/
def reluBias (a b : EReal) : EReal := max (a + b) 0

/-- The clip under a row's length: the binary32 value nearest 1e-12, read exactly. -/
def tiny : EReal := Ideal.ofBits .f32 0x2B8CBCCC#32

/-- Entry `j` of the row `v` divided by the row's Euclidean length, the length clipped below by `tiny`. -/
def unitRow {D : ℕ} (v : Fin D → EReal) (j : Fin D) : EReal :=
  Ideal.div (v j) (max (Ideal.sqrt (∑ t, v t * v t)) tiny)

end Cert.GcnSpec

end
-- ==== Proof.KernelPayloads.lean ====
/-
  The seven dense stages of the kernel, each read at one entry `(p, q)` of its `[10000, 64]` output on the
  extended reals, as one of the four entry-wise functions of the specification:
  a dot product of a feature row with a weight column plus that column's bias (`dense`), a bias followed by
  the positive part (`reluBias`), and a biased row divided by its clipped Euclidean length (`unitRow`).
  On the extended reals a narrowing of the format is the identity, a matrix product into the zero accumulator
  is the sum over the shared axis, a cast to the same shape is the identity, a `[1, 64]` row broadcast over the
  rows is read at `(0, q)`, a sum over the lanes is the 64-term sum along the row, and a column `[10000, 1]`
  broadcast over the lanes is read at `(p, 0)`.
-/
import proofs.«152028_j26912265077117_1_alg».proof.Proof.Gen.KernelIdeal.Skeleton
import proofs.«152028_j26912265077117_1_alg».proof.Proof.Spec
import Idealize.ShloMosaic.Lib.ValueLayout
import Idealize.ShloMosaic.PureOps.Ideal.Laws

noncomputable section

namespace Cert.KernelIdeal.Payloads

open Idealize.ShloMosaic Idealize.ShloMosaic.ValueIdx Cert.KernelIdeal Cert.KernelIdeal.Gen Cert.GcnSpec

/-! ## The bias-and-positive-part stages -/

/-- The first bias stage at entry `(p, q)`: a cast to the same shape is the identity, the one bias row is read
    at `(0, q)` on every row, the zero word is the real `0`, and the maximum is the extended reals' `max`. -/
theorem pay2_apply (v0 : Vec Ideal S10000x64 .f32) (v2 : Vec Ideal S1x64 .f32) (p : Fin 10000) (q : Fin 64) :
    k2_pay1 (F := Ideal) v0 v2 (ix2 p q) = reluBias (v0 (ix2 p q)) (v2 (ix2 0 q)) := by
  unfold k2_pay1 reluBias
  show max (shapeCast S10000x64 v0 _ (ix2 p q) + broadcastTo S10000x64 (shapeCast S1x64 v2 _) _ (ix2 p q))
      (Ideal.ofBits .f32 0x00000000#32) = _
  rw [shapeCast_self, shapeCast_self, broadcastTo_1b_ab_apply, Ideal.ofBits_zero_f32]

/-- The second bias stage is the same term. -/
theorem pay4_apply (v0 : Vec Ideal S10000x64 .f32) (v2 : Vec Ideal S1x64 .f32) (p : Fin 10000) (q : Fin 64) :
    k4_pay1 (F := Ideal) v0 v2 (ix2 p q) = reluBias (v0 (ix2 p q)) (v2 (ix2 0 q)) := by
  unfold k4_pay1 reluBias
  show max (shapeCast S10000x64 v0 _ (ix2 p q) + broadcastTo S10000x64 (shapeCast S1x64 v2 _) _ (ix2 p q))
      (Ideal.ofBits .f32 0x00000000#32) = _
  rw [shapeCast_self, shapeCast_self, broadcastTo_1b_ab_apply, Ideal.ofBits_zero_f32]

/-! ## The dense stages -/

/-- At output `i` and contraction position `c` the left operand's row is `i`'s row … -/
theorem lhs64_0 (i : S10000x64.Idx) (c : dot_S10000x64_S64x64_S10000x64_1_0_0_1_n_n.contr.Idx) : (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- … and its column the contraction position's one coordinate; -/
theorem lhs64_1 (i : S10000x64.Idx) (c : dot_S10000x64_S64x64_S10000x64_1_0_0_1_n_n.contr.Idx) : (dot_S10000x64_S64x64_S10000x64_1_0_0_1_n_n.lhsIdx i c 1).val = (c ⟨0, by decide⟩).val :=
  dot_S10000x64_S64x64_S10000x64_1_0_0_1_n_n.lhsIdx_val_of_single rfl i c
/-- the right operand's row is that coordinate … -/
theorem rhs64_0 (i : S10000x64.Idx) (c : dot_S10000x64_S64x64_S10000x64_1_0_0_1_n_n.contr.Idx) : (dot_S10000x64_S64x64_S10000x64_1_0_0_1_n_n.rhsIdx i c 0).val = (c ⟨0, by decide⟩).val :=
  dot_S10000x64_S64x64_S10000x64_1_0_0_1_n_n.rhsIdx_val_of_single rfl i c
/-- … and its column `i`'s column. -/
theorem rhs64_1 (i : S10000x64.Idx) (c : dot_S10000x64_S64x64_S10000x64_1_0_0_1_n_n.contr.Idx) : (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A matrix product into the zero accumulator, read at `(p, q)`: the sum over the shared axis of the products of
    row `p` of the left operand with column `q` of the right one. -/
theorem matmul64_apply {φ₁ φ₂ : FTy} (a : FVec Ideal S10000x64 φ₁) (b : FVec Ideal S64x64 φ₂) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun x => Fin.ext (by
      match x with
      | ⟨0, _⟩ => exact lhs64_0 _ _
      | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun x => Fin.ext (by
      match x with
      | ⟨0, _⟩ => exact (rhs64_0 _ _).trans hk
      | ⟨1, _⟩ => exact rhs64_1 _ _)
  rw [el, er]

/-- A 64-wide dense stage at entry `(p, q)`: the narrowing of the operands is the identity on the extended reals,
    the product into the zero accumulator is the sum over the shared axis, and the bias row is read at `(0, q)`. -/
theorem pay1_apply (v0 : Vec Ideal S10000x64 .f32) (v3 : Vec Ideal S64x64 .f32) (v6 : Vec Ideal S1x64 .f32)
    (p : Fin 10000) (q : Fin 64) :
    k1_pay1 (F := Ideal) v0 v3 v6 (ix2 p q)
      = dense (fun k : Fin 64 => v0 (ix2 p k)) (fun k => v3 (ix2 k q)) (v6 (ix2 0 q)) := by
  unfold k1_pay1 dense dotRow
  show matmul dot_S10000x64_S64x64_S10000x64_1_0_0_1_n_n none
        (truncf .bf16 (shapeCast S10000x64 v0 _ : FVec Ideal S10000x64 .f32) _ : FVec Ideal S10000x64 .bf16)
        (truncf .bf16 (v3 : FVec Ideal S64x64 .f32) _ : FVec Ideal S64x64 .bf16)
        (constant (F := Ideal) S10000x64 .f32 0x00000000#32) (ix2 p q)
      + broadcastTo S10000x64 (shapeCast S1x64 v6 _) _ (ix2 p q) = _
  rw [matmul64_apply, shapeCast_self, shapeCast_self, broadcastTo_1b_ab_apply]
  rfl

/-- The other two 64-wide dense stages are the same term. -/
theorem pay3_apply (v0 : Vec Ideal S10000x64 .f32) (v3 : Vec Ideal S64x64 .f32) (v6 : Vec Ideal S1x64 .f32)
    (p : Fin 10000) (q : Fin 64) :
    k3_pay1 (F := Ideal) v0 v3 v6 (ix2 p q)
      = dense (fun k : Fin 64 => v0 (ix2 p k)) (fun k => v3 (ix2 k q)) (v6 (ix2 0 q)) :=
  pay1_apply v0 v3 v6 p q

theorem pay5_apply (v0 : Vec Ideal S10000x64 .f32) (v3 : Vec Ideal S64x64 .f32) (v6 : Vec Ideal S1x64 .f32)
    (p : Fin 10000) (q : Fin 64) :
    k5_pay1 (F := Ideal) v0 v3 v6 (ix2 p q)
      = dense (fun k : Fin 64 => v0 (ix2 p k)) (fun k => v3 (ix2 k q)) (v6 (ix2 0 q)) :=
  pay1_apply v0 v3 v6 p q

/-- At output `i` and contraction position `c` the left operand's row is `i`'s row … -/
theorem lhs128_0 (i : S10000x64.Idx) (c : dot_S10000x128_S128x64_S10000x64_1_0_0_1_n_n.contr.Idx) : (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- … and its column the contraction position's one coordinate; -/
theorem lhs128_1 (i : S10000x64.Idx) (c : dot_S10000x128_S128x64_S10000x64_1_0_0_1_n_n.contr.Idx) : (dot_S10000x128_S128x64_S10000x64_1_0_0_1_n_n.lhsIdx i c 1).val = (c ⟨0, by decide⟩).val :=
  dot_S10000x128_S128x64_S10000x64_1_0_0_1_n_n.lhsIdx_val_of_single rfl i c
/-- the right operand's row is that coordinate … -/
theorem rhs128_0 (i : S10000x64.Idx) (c : dot_S10000x128_S128x64_S10000x64_1_0_0_1_n_n.contr.Idx) : (dot_S10000x128_S128x64_S10000x64_1_0_0_1_n_n.rhsIdx i c 0).val = (c ⟨0, by decide⟩).val :=
  dot_S10000x128_S128x64_S10000x64_1_0_0_1_n_n.rhsIdx_val_of_single rfl i c
/-- … and its column `i`'s column. -/
theorem rhs128_1 (i : S10000x64.Idx) (c : dot_S10000x128_S128x64_S10000x64_1_0_0_1_n_n.contr.Idx) : (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- A matrix product into the zero accumulator, read at `(p, q)`: the sum over the shared axis of the products of
    row `p` of the left operand with column `q` of the right one. -/
theorem matmul128_apply {φ₁ φ₂ : FTy} (a : FVec Ideal S10000x128 φ₁) (b : FVec Ideal S128x64 φ₂) (p : Fin 10000) (q : Fin 64) :
    matmul dot_S10000x128_S128x64_S10000x64_1_0_0_1_n_n none a b (constant (F := Ideal) S10000x64 .f32 0x00000000#32) (ix2 p q)
      = ∑ k : Fin 128, a (ix2 p k) * b (ix2 k q) := by
  refine (Ideal.matmul_constant_zero_apply dot_S10000x128_S128x64_S10000x64_1_0_0_1_n_n none a b (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun x => Fin.ext (by
      match x with
      | ⟨0, _⟩ => exact lhs128_0 _ _
      | ⟨1, _⟩ => exact (lhs128_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun x => Fin.ext (by
      match x with
      | ⟨0, _⟩ => exact (rhs128_0 _ _).trans hk
      | ⟨1, _⟩ => exact rhs128_1 _ _)
  rw [el, er]

/-- The 128-wide dense stage at entry `(p, q)`, read the same way. -/
theorem pay0_apply (v0 : Vec Ideal S10000x128 .f32) (v2 : Vec Ideal S128x64 .f32) (v5 : Vec Ideal S1x64 .f32)
    (p : Fin 10000) (q : Fin 64) :
    k0_pay1 (F := Ideal) v0 v2 v5 (ix2 p q)
      = dense (fun k : Fin 128 => v0 (ix2 p k)) (fun k => v2 (ix2 k q)) (v5 (ix2 0 q)) := by
  unfold k0_pay1 dense dotRow
  show matmul dot_S10000x128_S128x64_S10000x64_1_0_0_1_n_n none
        (truncf .bf16 (v0 : FVec Ideal S10000x128 .f32) _ : FVec Ideal S10000x128 .bf16)
        (truncf .bf16 (v2 : FVec Ideal S128x64 .f32) _ : FVec Ideal S128x64 .bf16)
        (constant (F := Ideal) S10000x64 .f32 0x00000000#32) (ix2 p q)
      + broadcastTo S10000x64 (shapeCast S1x64 v5 _) _ (ix2 p q) = _
  rw [matmul128_apply, shapeCast_self, broadcastTo_1b_ab_apply]
  rfl

/-! ## The row-normalizing stage -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a `[10000, 64]` array, read at row `p`: the 64-term sum along that row. -/
theorem rowSum_apply (src : FVec Ideal S10000x64 .f32) (h : S10000x64.Reduces [1] S10000) (hφ : FKind.Formats .f32)
    (hacc : (0x00000000#32 : BitVec 32) = 0x00000000#32) (p : Fin 10000) :
    multiReduction .add [1] S10000 src 0x00000000#32 h hφ hacc (ix1 p) = ∑ t : Fin 64, src (ix2 p t) := by
  refine (Ideal.multiReduction_add_single src 0x00000000#32 h hφ hacc (ix1 p)).trans ?_
  refine Finset.sum_congr rfl fun t _ => congrArg src ?_
  funext x
  match x with
  | ⟨0, _⟩ => rfl
  | ⟨1, _⟩ => rfl

/-- A row divided by its clipped Euclidean length, at entry `(p, q)`: the sum of squares along row `p`, kept as
    a column, its square root, the clip from below, that column read on every lane, and the quotient. -/
theorem normalize_apply (x : FVec Ideal S10000x64 .f32) (hr : S10000x64.Reduces [1] S10000) (hφ : FKind.Formats .f32)
    (hacc : (0x00000000#32 : BitVec 32) = 0x00000000#32) (hc : S10000.ShapeCasts S10000x1)
    (hb : S10000x1.Broadcasts S10000x64) (p : Fin 10000) (q : Fin 64) :
    divf x (broadcastTo S10000x64
        (maximumf (sqrt (shapeCast S10000x1 (multiReduction .add [1] S10000 (mulf x x) 0x00000000#32 hr hφ hacc) hc))
          (broadcast S10000x1 (Scalar.ofBits (F := Ideal) .f32 0x2B8CBCCC#32))) hb) (ix2 p q)
      = Ideal.div (x (ix2 p q))
          (max (Ideal.sqrt (∑ t : Fin 64, x (ix2 p t) * x (ix2 p t))) (Ideal.ofBits .f32 0x2B8CBCCC#32)) := by
  show Ideal.div (x (ix2 p q)) (broadcastTo S10000x64 _ hb (ix2 p q)) = _
  rw [broadcastTo_a1_ab_apply]
  show Ideal.div _ (max (Ideal.sqrt (shapeCast S10000x1 _ hc (ix2 p (0 : Fin 1)))) _) = _
  rw [shapeCast_a_a1_apply, rowSum_apply]
  rfl

/-- The feature row with its bias added, at entry `(p, t)`. -/
theorem biased_apply (v0 : Vec Ideal S10000x64 .f32) (v2 : Vec Ideal S1x64 .f32) (hc : S10000x64.ShapeCasts S10000x64)
    (hc' : S1x64.ShapeCasts S1x64) (hb : S1x64.Broadcasts S10000x64) (p : Fin 10000) (t : Fin 64) :
    addf (shapeCast S10000x64 v0 hc : FVec Ideal S10000x64 .f32) (broadcastTo S10000x64 (shapeCast S1x64 v2 hc') hb) (ix2 p t)
      = v0 (ix2 p t) + v2 (ix2 0 t) := by
  show shapeCast S10000x64 v0 hc (ix2 p t) + broadcastTo S10000x64 (shapeCast S1x64 v2 hc') hb (ix2 p t) = _
  rw [shapeCast_self, shapeCast_self, broadcastTo_1b_ab_apply]

/-- The last stage at entry `(p, q)`: the biased row divided by its clipped Euclidean length. -/
theorem pay6_apply (v0 : Vec Ideal S10000x64 .f32) (v2 : Vec Ideal S1x64 .f32) (p : Fin 10000) (q : Fin 64) :
    k6_pay1 (F := Ideal) v0 v2 (ix2 p q) = unitRow (fun j : Fin 64 => v0 (ix2 p j) + v2 (ix2 0 j)) q := by
  unfold k6_pay1 unitRow tiny
  refine (normalize_apply (addf (shapeCast S10000x64 v0 _ : FVec Ideal S10000x64 .f32)
    (broadcastTo S10000x64 (shapeCast S1x64 v2 _) _)) _ _ _ _ _ p q).trans ?_
  simp only [biased_apply]

end Cert.KernelIdeal.Payloads

end
-- ==== Proof.Region0.lean ====
/-
  The first launch's output array, as one function of its three input arrays.
  The launch walks ten blocks of ten thousand rows. At block t it reads rows [10000 t, 10000 t + 10000) of the
  features, the whole weight matrix and the whole bias row, and writes the same rows of the output; the blocks tile
  the output, so the array it leaves is, entry (r, q), the dot product of feature row r with weight column q plus
  the bias at q — whatever block r falls in.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the weights and
    the bias row whole. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense layer of whole arrays: entry (r, q) is row r of `A0` against column q of `A1`, plus `A2` at (0, q). -/
def layer (A0 : (⟨S100000x128, .f32⟩ : BufTy).Contents (Elt Ideal)) (A1 : (⟨S128x64, .f32⟩ : BufTy).Contents (Elt Ideal))
    (A2 : (⟨S1x64, .f32⟩ : BufTy).Contents (Elt Ideal)) : (⟨S100000x64, .f32⟩ : BufTy).Contents (Elt Ideal) :=
  fun i => dense (fun k : Fin 128 => A0 (ix2 (⟨(i 0).val, (i 0).isLt⟩ : Fin 100000) k))
    (fun k : Fin 128 => A1 (ix2 k (⟨(i 1).val, (i 1).isLt⟩ : Fin 64))) (A2 (ix2 (0 : Fin 1) (⟨(i 1).val, (i 1).isLt⟩ : Fin 64)))

/-- What point t writes back is block t of the dense layer of the input arrays. -/
theorem flushed_eq (c : Dev nD) (t : Fin cfg0.N) :
    (dat0 (F := Ideal) V c).flushed 3 t = ((cfg0.win 3).blk t).view.read (Elt Ideal) (layer (V c main_arg0) (V c main_arg2) (V c main_v30)) := by
  show (cfg0.win 3).cut (grid0.coords t) ((dat0 (F := Ideal) V c).after 3 t) = _
  rw [after0_3]
  unfold out0_3
  rw [View.canon_unit_zero zeros2]
  simp only [View.ld_unit_zero (S := S10000x128) zeros2, View.ld_unit_zero (S := S128x64) zeros2, View.ld_unit_zero (S := S1x64) zeros2]
  obtain ⟨e00, e01, e10, e11, e20, e21, e30, e31⟩ := blockIndex t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = layer (V c main_arg0) (V c main_arg2) (V c main_v30) (((cfg0.win 3).blk t).view.emb (ix2 p q))
  refine (Cert.KernelIdeal.Payloads.pay0_apply (iblk0 V c 0 t) (iblk0 V c 1 t) (iblk0 V c 2 t) p q).trans ?_
  have h0 : ∀ k : Fin 128, iblk0 V c 0 t (ix2 p k)
      = V c main_arg0 (ix2 (⟨((((cfg0.win 3).blk t).view.emb (ix2 p q)) 0).val, ((((cfg0.win 3).blk t).view.emb (ix2 p q)) 0).isLt⟩ : Fin 100000) k) := fun k => by
    show V c main_arg0 (((cfg0.win 0).blk t).view.emb (ix2 p k)) = _
    refine congrArg _ ?_
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have h1 : ∀ k : Fin 128, iblk0 V c 1 t (ix2 k q)
      = V c main_arg2 (ix2 k (⟨((((cfg0.win 3).blk t).view.emb (ix2 p q)) 1).val, ((((cfg0.win 3).blk t).view.emb (ix2 p q)) 1).isLt⟩ : Fin 64)) := fun k => by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  have h2 : iblk0 V c 2 t (ix2 (0 : Fin 1) q)
      = V c main_v30 (ix2 (0 : Fin 1) (⟨((((cfg0.win 3).blk t).view.emb (ix2 p q)) 1).val, ((((cfg0.win 3).blk t).view.emb (ix2 p q)) 1).isLt⟩ : Fin 64)) := by
    show V c main_v30 (((cfg0.win 2).blk t).view.emb (ix2 (0 : Fin 1) q)) = _
    refine congrArg _ ?_
    funext a; apply Fin.ext
    match a with
    | ⟨0, _⟩ => show win0_2.index t (0 : Fin 2) * 1 + 1 * (0 : Fin 1).val = (0 : Fin 1).val; omega
    | ⟨1, _⟩ => show win0_2.index t (1 : Fin 2) * 64 + 1 * q.val = win0_3.index t (1 : Fin 2) * 64 + 1 * q.val; omega
  exact congr (congr (congrArg dense (funext h0)) (funext h1)) h2

/-- An index of the output lies in point t's block iff each coordinate lies in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v31).slice (win0_3.rect t)).set ↔ _
  rw [View.set_slice_whole, Rect.mem_set_unit]
  exact Iff.rfl

/-- The ten blocks tile the output: row r lies in block r / 10000. -/
theorem tiled (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have ht : (i 0).val / 10000 < grid0.N := by omega
  obtain ⟨e00, e01, e10, e11, e20, e21, e30, e31⟩ := blockIndex ⟨(i 0).val / 10000, ht⟩
  refine ⟨⟨(i 0).val / 10000, ht⟩, flush0_3 _, ?_⟩
  rw [mem_block]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    have e : win0_3.index ⟨(i 0).val / 10000, ht⟩ (0 : Fin 2) = (i 0).val / 10000 := e30
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    omega

/-- The output array after the launch is the dense layer of the three input arrays as the launch found them. -/
theorem array_eq (c : Dev nD) :
    (dat0 (F := Ideal) V c).arrAt 3 cfg0.N = layer (V c main_arg0) (V c main_arg2) (V c main_v30) :=
  (dat0 (F := Ideal) V c).arrAt_eq_of_cover 3 _ (fun t _ => flushed_eq V c t) tiled

end Cert.KernelIdeal.Region0

end
-- ==== Proof.Region1.lean ====
/-
  The second launch's output array, as one function of its three input arrays.
  The launch walks ten blocks of ten thousand rows. At block t it reads rows [10000 t, 10000 t + 10000) of the
  features, the whole 64 × 64 weight matrix and the whole bias row, and writes the same rows of the output; the blocks
  tile the output, so the array it leaves is, entry (r, q), the dot product of feature row r with weight column q plus
  the bias at q — whatever block r falls in.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the weights and
    the bias row whole. -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense layer of whole arrays: entry (r, q) is row r of `A0` against column q of `A1`, plus `A2` at (0, q). -/
def layer (A0 : (⟨S100000x64, .f32⟩ : BufTy).Contents (Elt Ideal)) (A1 : (⟨S64x64, .f32⟩ : BufTy).Contents (Elt Ideal))
    (A2 : (⟨S1x64, .f32⟩ : BufTy).Contents (Elt Ideal)) : (⟨S100000x64, .f32⟩ : BufTy).Contents (Elt Ideal) :=
  fun i => dense (fun k : Fin 64 => A0 (ix2 (⟨(i 0).val, (i 0).isLt⟩ : Fin 100000) k))
    (fun k : Fin 64 => A1 (ix2 k (⟨(i 1).val, (i 1).isLt⟩ : Fin 64))) (A2 (ix2 (0 : Fin 1) (⟨(i 1).val, (i 1).isLt⟩ : Fin 64)))

/-- What point t writes back is block t of the dense layer of the input arrays. -/
theorem flushed_eq (c : Dev nD) (t : Fin cfg1.N) :
    (dat1 (F := Ideal) V c).flushed 3 t = ((cfg1.win 3).blk t).view.read (Elt Ideal) (layer (V c main_v31) (V c main_arg4) (V c main_v33)) := by
  show (cfg1.win 3).cut (grid1.coords t) ((dat1 (F := Ideal) V c).after 3 t) = _
  rw [after1_3]
  unfold out1_3
  rw [View.canon_unit_zero zeros2]
  simp only [View.ld_unit_zero (S := S10000x64) zeros2, View.ld_unit_zero (S := S64x64) zeros2, View.ld_unit_zero (S := S1x64) zeros2]
  obtain ⟨e00, e01, e10, e11, e20, e21, e30, e31⟩ := blockIndex t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = layer (V c main_v31) (V c main_arg4) (V c main_v33) (((cfg1.win 3).blk t).view.emb (ix2 p q))
  refine (Cert.KernelIdeal.Payloads.pay1_apply (iblk1 V c 0 t) (iblk1 V c 1 t) (iblk1 V c 2 t) p q).trans ?_
  have h0 : ∀ k : Fin 64, iblk1 V c 0 t (ix2 p k)
      = V c main_v31 (ix2 (⟨((((cfg1.win 3).blk t).view.emb (ix2 p q)) 0).val, ((((cfg1.win 3).blk t).view.emb (ix2 p q)) 0).isLt⟩ : Fin 100000) k) := fun k => by
    show V c main_v31 (((cfg1.win 0).blk t).view.emb (ix2 p k)) = _
    refine congrArg _ ?_
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have h1 : ∀ k : Fin 64, iblk1 V c 1 t (ix2 k q)
      = V c main_arg4 (ix2 k (⟨((((cfg1.win 3).blk t).view.emb (ix2 p q)) 1).val, ((((cfg1.win 3).blk t).view.emb (ix2 p q)) 1).isLt⟩ : Fin 64)) := fun k => by
    show V c main_arg4 (((cfg1.win 1).blk t).view.emb (ix2 k q)) = _
    refine congrArg _ ?_
    funext a; apply Fin.ext
    match a with
    | ⟨0, _⟩ => show win1_1.index t (0 : Fin 2) * 64 + 1 * k.val = k.val; omega
    | ⟨1, _⟩ => show win1_1.index t (1 : Fin 2) * 64 + 1 * q.val = win1_3.index t (1 : Fin 2) * 64 + 1 * q.val; omega
  have h2 : iblk1 V c 2 t (ix2 (0 : Fin 1) q)
      = V c main_v33 (ix2 (0 : Fin 1) (⟨((((cfg1.win 3).blk t).view.emb (ix2 p q)) 1).val, ((((cfg1.win 3).blk t).view.emb (ix2 p q)) 1).isLt⟩ : Fin 64)) := by
    show V c main_v33 (((cfg1.win 2).blk t).view.emb (ix2 (0 : Fin 1) q)) = _
    refine congrArg _ ?_
    funext a; apply Fin.ext
    match a with
    | ⟨0, _⟩ => show win1_2.index t (0 : Fin 2) * 1 + 1 * (0 : Fin 1).val = (0 : Fin 1).val; omega
    | ⟨1, _⟩ => show win1_2.index t (1 : Fin 2) * 64 + 1 * q.val = win1_3.index t (1 : Fin 2) * 64 + 1 * q.val; omega
  exact congr (congr (congrArg dense (funext h0)) (funext h1)) h2

/-- An index of the output lies in point t's block iff each coordinate lies in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v34).slice (win1_3.rect t)).set ↔ _
  rw [View.set_slice_whole, Rect.mem_set_unit]
  exact Iff.rfl

/-- The ten blocks tile the output: row r lies in block r / 10000. -/
theorem tiled (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have ht : (i 0).val / 10000 < grid1.N := by omega
  obtain ⟨e00, e01, e10, e11, e20, e21, e30, e31⟩ := blockIndex ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    have e : win1_3.index ⟨(i 0).val / 10000, ht⟩ (0 : Fin 2) = (i 0).val / 10000 := e30
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    omega

/-- The output array after the launch is the dense layer of the three input arrays as the launch found them. -/
theorem array_eq (c : Dev nD) :
    (dat1 (F := Ideal) V c).arrAt 3 cfg1.N = layer (V c main_v31) (V c main_arg4) (V c main_v33) :=
  (dat1 (F := Ideal) V c).arrAt_eq_of_cover 3 _ (fun t _ => flushed_eq V c t) tiled

end Cert.KernelIdeal.Region1

end
-- ==== Proof.Region2.lean ====
/-
  The third launch's output array, as one function of its two input arrays.
  The launch walks ten blocks of ten thousand rows. At block t it reads rows [10000 t, 10000 t + 10000) of the
  features and the whole bias row, and writes the same rows of the output; the blocks tile the output, so the array it
  leaves is, entry (r, q), the positive part of the feature at (r, q) plus the bias at q — whatever block r falls in.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the bias row whole. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The bias and positive part of whole arrays: entry (r, q) is `A0` at (r, q) plus `A1` at (0, q), cut below at zero. -/
def layer (A0 : (⟨S100000x64, .f32⟩ : BufTy).Contents (Elt Ideal)) (A1 : (⟨S1x64, .f32⟩ : BufTy).Contents (Elt Ideal)) :
    (⟨S100000x64, .f32⟩ : BufTy).Contents (Elt Ideal) :=
  fun i => reluBias (A0 (ix2 (⟨(i 0).val, (i 0).isLt⟩ : Fin 100000) (⟨(i 1).val, (i 1).isLt⟩ : Fin 64)))
    (A1 (ix2 (0 : Fin 1) (⟨(i 1).val, (i 1).isLt⟩ : Fin 64)))

/-- What point t writes back is block t of that function of the input arrays. -/
theorem flushed_eq (c : Dev nD) (t : Fin cfg2.N) :
    (dat2 (F := Ideal) V c).flushed 2 t = ((cfg2.win 2).blk t).view.read (Elt Ideal) (layer (V c main_v47) (V c main_v48)) := by
  show (cfg2.win 2).cut (grid2.coords t) ((dat2 (F := Ideal) V c).after 2 t) = _
  rw [after2_2]
  unfold out2_2
  rw [View.canon_unit_zero zeros2]
  simp only [View.ld_unit_zero (S := S10000x64) zeros2, View.ld_unit_zero (S := S1x64) zeros2]
  obtain ⟨e00, e01, e10, e11, e20, e21⟩ := blockIndex t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = layer (V c main_v47) (V c main_v48) (((cfg2.win 2).blk t).view.emb (ix2 p q))
  refine (Cert.KernelIdeal.Payloads.pay2_apply (iblk2 V c 0 t) (iblk2 V c 1 t) p q).trans ?_
  have h0 : iblk2 V c 0 t (ix2 p q)
      = V c main_v47 (ix2 (⟨((((cfg2.win 2).blk t).view.emb (ix2 p q)) 0).val, ((((cfg2.win 2).blk t).view.emb (ix2 p q)) 0).isLt⟩ : Fin 100000)
          (⟨((((cfg2.win 2).blk t).view.emb (ix2 p q)) 1).val, ((((cfg2.win 2).blk t).view.emb (ix2 p q)) 1).isLt⟩ : Fin 64)) := by
    show V c main_v47 (((cfg2.win 0).blk t).view.emb (ix2 p q)) = _
    refine congrArg _ ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : iblk2 V c 1 t (ix2 (0 : Fin 1) q)
      = V c main_v48 (ix2 (0 : Fin 1) (⟨((((cfg2.win 2).blk t).view.emb (ix2 p q)) 1).val, ((((cfg2.win 2).blk t).view.emb (ix2 p q)) 1).isLt⟩ : Fin 64)) := by
    show V c main_v48 (((cfg2.win 1).blk t).view.emb (ix2 (0 : Fin 1) q)) = _
    refine congrArg _ ?_
    funext a; apply Fin.ext
    match a with
    | ⟨0, _⟩ => show win2_1.index t (0 : Fin 2) * 1 + 1 * (0 : Fin 1).val = (0 : Fin 1).val; omega
    | ⟨1, _⟩ => show win2_1.index t (1 : Fin 2) * 64 + 1 * q.val = win2_2.index t (1 : Fin 2) * 64 + 1 * q.val; omega
  exact congr (congrArg reluBias h0) h1

/-- An index of the output lies in point t's block iff each coordinate lies in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v49).slice (win2_2.rect t)).set ↔ _
  rw [View.set_slice_whole, Rect.mem_set_unit]
  exact Iff.rfl

/-- The ten blocks tile the output: row r lies in block r / 10000. -/
theorem tiled (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < grid2.N := by omega
  obtain ⟨e00, e01, e10, e11, e20, e21⟩ := blockIndex ⟨(i 0).val / 10000, ht⟩
  refine ⟨⟨(i 0).val / 10000, ht⟩, flush2_2 _, ?_⟩
  rw [mem_block]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    have e : win2_2.index ⟨(i 0).val / 10000, ht⟩ (0 : Fin 2) = (i 0).val / 10000 := e20
    omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    omega

/-- The output array after the launch is that function of the two input arrays as the launch found them. -/
theorem array_eq (c : Dev nD) :
    (dat2 (F := Ideal) V c).arrAt 2 cfg2.N = layer (V c main_v47) (V c main_v48) :=
  (dat2 (F := Ideal) V c).arrAt_eq_of_cover 2 _ (fun t _ => flushed_eq V c t) tiled

end Cert.KernelIdeal.Region2

end
-- ==== Proof.Region3.lean ====
/-
  The fourth launch's output array, as one function of its three input arrays.
  The launch walks ten blocks of ten thousand rows. At block t it reads rows [10000 t, 10000 t + 10000) of the
  features, the whole 64 × 64 weight matrix and the whole bias row, and writes the same rows of the output; the blocks
  tile the output, so the array it leaves is, entry (r, q), the dot product of feature row r with weight column q plus
  the bias at q — whatever block r falls in.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the weights and
    the bias row whole. -/
theorem blockIndex : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The dense layer of whole arrays: entry (r, q) is row r of `A0` against column q of `A1`, plus `A2` at (0, q). -/
def layer (A0 : (⟨S100000x64, .f32⟩ : BufTy).Contents (Elt Ideal)) (A1 : (⟨S64x64, .f32⟩ : BufTy).Contents (Elt Ideal))
    (A2 : (⟨S1x64, .f32⟩ : BufTy).Contents (Elt Ideal)) : (⟨S100000x64, .f32⟩ : BufTy).Contents (Elt Ideal) :=
  fun i => dense (fun k : Fin 64 => A0 (ix2 (⟨(i 0).val, (i 0).isLt⟩ : Fin 100000) k))
    (fun k : Fin 64 => A1 (ix2 k (⟨(i 1).val, (i 1).isLt⟩ : Fin 64))) (A2 (ix2 (0 : Fin 1) (⟨(i 1).val, (i 1).isLt⟩ : Fin 64)))

/-- What point t writes back is block t of the dense layer of the input arrays. -/
theorem flushed_eq (c : Dev nD) (t : Fin cfg3.N) :
    (dat3 (F := Ideal) V c).flushed 3 t = ((cfg3.win 3).blk t).view.read (Elt Ideal) (layer (V c main_v49) (V c main_arg6) (V c main_v51)) := by
  show (cfg3.win 3).cut (grid3.coords t) ((dat3 (F := Ideal) V c).after 3 t) = _
  rw [after3_3]
  unfold out3_3
  rw [View.canon_unit_zero zeros2]
  simp only [View.ld_unit_zero (S := S10000x64) zeros2, View.ld_unit_zero (S := S64x64) zeros2, View.ld_unit_zero (S := S1x64) zeros2]
  obtain ⟨e00, e01, e10, e11, e20, e21, e30, e31⟩ := blockIndex t
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (iblk3 V c 2 t) (ix2 p q)
    = layer (V c main_v49) (V c main_arg6) (V c main_v51) (((cfg3.win 3).blk t).view.emb (ix2 p q))
  refine (Cert.KernelIdeal.Payloads.pay3_apply (iblk3 V c 0 t) (iblk3 V c 1 t) (iblk3 V c 2 t) p q).trans ?_
  have h0 : ∀ k : Fin 64, iblk3 V c 0 t (ix2 p k)
      = V c main_v49 (ix2 (⟨((((cfg3.win 3).blk t).view.emb (ix2 p q)) 0).val, ((((cfg3.win 3).blk t).view.emb (ix2 p q)) 0).isLt⟩ : Fin 100000) k) := fun k => by
    show V c main_v49 (((cfg3.win 0).blk t).view.emb (ix2 p k)) = _
    refine congrArg _ ?_
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  have h1 : ∀ k : Fin 64, iblk3 V c 1 t (ix2 k q)
      = V c main_arg6 (ix2 k (⟨((((cfg3.win 3).blk t).view.emb (ix2 p q)) 1).val, ((((cfg3.win 3).blk t).view.emb (ix2 p q)) 1).isLt⟩ : Fin 64)) := fun k => by
    show V c main_arg6 (((cfg3.win 1).blk t).view.emb (ix2 k q)) = _
    refine congrArg _ ?_
    funext a; apply Fin.ext
    match a with
    | ⟨0, _⟩ => show win3_1.index t (0 : Fin 2) * 64 + 1 * k.val = k.val; omega
    | ⟨1, _⟩ => show win3_1.index t (1 : Fin 2) * 64 + 1 * q.val = win3_3.index t (1 : Fin 2) * 64 + 1 * q.val; omega
  have h2 : iblk3 V c 2 t (ix2 (0 : Fin 1) q)
      = V c main_v51 (ix2 (0 : Fin 1) (⟨((((cfg3.win 3).blk t).view.emb (ix2 p q)) 1).val, ((((cfg3.win 3).blk t).view.emb (ix2 p q)) 1).isLt⟩ : Fin 64)) := by
    show V c main_v51 (((cfg3.win 2).blk t).view.emb (ix2 (0 : Fin 1) q)) = _
    refine congrArg _ ?_
    funext a; apply Fin.ext
    match a with
    | ⟨0, _⟩ => show win3_2.index t (0 : Fin 2) * 1 + 1 * (0 : Fin 1).val = (0 : Fin 1).val; omega
    | ⟨1, _⟩ => show win3_2.index t (1 : Fin 2) * 64 + 1 * q.val = win3_3.index t (1 : Fin 2) * 64 + 1 * q.val; omega
  exact congr (congr (congrArg dense (funext h0)) (funext h1)) h2

/-- An index of the output lies in point t's block iff each coordinate lies in the block's range on its axis. -/
theorem mem_block (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v52).slice (win3_3.rect t)).set ↔ _
  rw [View.set_slice_whole, Rect.mem_set_unit]
  exact Iff.rfl

/-- The ten blocks tile the output: row r lies in block r / 10000. -/
theorem tiled (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 10 := N_3
  have ht : (i 0).val / 10000 < grid3.N := by omega
  obtain ⟨e00, e01, e10, e11, e20, e21, e30, e31⟩ := blockIndex ⟨(i 0).val / 10000, ht⟩
  refine ⟨⟨(i 0).val / 10000, ht⟩, flush3_3 _, ?_⟩
  rw [mem_block]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    have e : win3_3.index ⟨(i 0).val / 10000, ht⟩ (0 : Fin 2) = (i 0).val / 10000 := e30
    omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    omega

/-- The output array after the launch is the dense layer of the three input arrays as the launch found them. -/
theorem array_eq (c : Dev nD) :
    (dat3 (F := Ideal) V c).arrAt 3 cfg3.N = layer (V c main_v49) (V c main_arg6) (V c main_v51) :=
  (dat3 (F := Ideal) V c).arrAt_eq_of_cover 3 _ (fun t _ => flushed_eq V c t) tiled

end Cert.KernelIdeal.Region3

end
-- ==== Proof.Region4.lean ====
/-
  The fifth launch's output array, as one function of its two input arrays.
  The launch walks ten blocks of ten thousand rows. At block t it reads rows [10000 t, 10000 t + 10000) of the
  features and the whole bias row, and writes the same rows of the output; the blocks tile the output, so the array it
  leaves is, entry (r, q), the positive part of the feature at (r, q) plus the bias at q — whatever block r falls in.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the bias row whole. -/
theorem blockIndex : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The bias and positive part of whole arrays: entry (r, q) is `A0` at (r, q) plus `A1` at (0, q), cut below at zero. -/
def layer (A0 : (⟨S100000x64, .f32⟩ : BufTy).Contents (Elt Ideal)) (A1 : (⟨S1x64, .f32⟩ : BufTy).Contents (Elt Ideal)) :
    (⟨S100000x64, .f32⟩ : BufTy).Contents (Elt Ideal) :=
  fun i => reluBias (A0 (ix2 (⟨(i 0).val, (i 0).isLt⟩ : Fin 100000) (⟨(i 1).val, (i 1).isLt⟩ : Fin 64)))
    (A1 (ix2 (0 : Fin 1) (⟨(i 1).val, (i 1).isLt⟩ : Fin 64)))

/-- What point t writes back is block t of that function of the input arrays. -/
theorem flushed_eq (c : Dev nD) (t : Fin cfg4.N) :
    (dat4 (F := Ideal) V c).flushed 2 t = ((cfg4.win 2).blk t).view.read (Elt Ideal) (layer (V c main_v65) (V c main_v66)) := by
  show (cfg4.win 2).cut (grid4.coords t) ((dat4 (F := Ideal) V c).after 2 t) = _
  rw [after4_2]
  unfold out4_2
  rw [View.canon_unit_zero zeros2]
  simp only [View.ld_unit_zero (S := S10000x64) zeros2, View.ld_unit_zero (S := S1x64) zeros2]
  obtain ⟨e00, e01, e10, e11, e20, e21⟩ := blockIndex t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q)
    = layer (V c main_v65) (V c main_v66) (((cfg4.win 2).blk t).view.emb (ix2 p q))
  refine (Cert.KernelIdeal.Payloads.pay4_apply (iblk4 V c 0 t) (iblk4 V c 1 t) p q).trans ?_
  have h0 : iblk4 V c 0 t (ix2 p q)
      = V c main_v65 (ix2 (⟨((((cfg4.win 2).blk t).view.emb (ix2 p q)) 0).val, ((((cfg4.win 2).blk t).view.emb (ix2 p q)) 0).isLt⟩ : Fin 100000)
          (⟨((((cfg4.win 2).blk t).view.emb (ix2 p q)) 1).val, ((((cfg4.win 2).blk t).view.emb (ix2 p q)) 1).isLt⟩ : Fin 64)) := by
    show V c main_v65 (((cfg4.win 0).blk t).view.emb (ix2 p q)) = _
    refine congrArg _ ?_
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * q.val = win4_2.index t (1 : Fin 2) * 64 + 1 * q.val; omega
  have h1 : iblk4 V c 1 t (ix2 (0 : Fin 1) q)
      = V c main_v66 (ix2 (0 : Fin 1) (⟨((((cfg4.win 2).blk t).view.emb (ix2 p q)) 1).val, ((((cfg4.win 2).blk t).view.emb (ix2 p q)) 1).isLt⟩ : Fin 64)) := by
    show V c main_v66 (((cfg4.win 1).blk t).view.emb (ix2 (0 : Fin 1) q)) = _
    refine congrArg _ ?_
    funext a; apply Fin.ext
    match a with
    | ⟨0, _⟩ => show win4_1.index t (0 : Fin 2) * 1 + 1 * (0 : Fin 1).val = (0 : Fin 1).val; omega
    | ⟨1, _⟩ => show win4_1.index t (1 : Fin 2) * 64 + 1 * q.val = win4_2.index t (1 : Fin 2) * 64 + 1 * q.val; omega
  exact congr (congrArg reluBias h0) h1

/-- An index of the output lies in point t's block iff each coordinate lies in the block's range on its axis. -/
theorem mem_block (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v67).slice (win4_2.rect t)).set ↔ _
  rw [View.set_slice_whole, Rect.mem_set_unit]
  exact Iff.rfl

/-- The ten blocks tile the output: row r lies in block r / 10000. -/
theorem tiled (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  have ht : (i 0).val / 10000 < grid4.N := by omega
  obtain ⟨e00, e01, e10, e11, e20, e21⟩ := blockIndex ⟨(i 0).val / 10000, ht⟩
  refine ⟨⟨(i 0).val / 10000, ht⟩, flush4_2 _, ?_⟩
  rw [mem_block]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    have e : win4_2.index ⟨(i 0).val / 10000, ht⟩ (0 : Fin 2) = (i 0).val / 10000 := e20
    omega
  | ⟨1, _⟩ =>
    show win4_2.index ⟨(i 0).val / 10000, ht⟩ (1 : Fin 2) * 64 ≤ (i 1).val ∧ (i 1).val < win4_2.index ⟨(i 0).val / 10000, ht⟩ (1 : Fin 2) * 64 + 64
    omega

/-- The output array after the launch is that function of the two input arrays as the launch found them. -/
theorem array_eq (c : Dev nD) :
    (dat4 (F := Ideal) V c).arrAt 2 cfg4.N = layer (V c main_v65) (V c main_v66) :=
  (dat4 (F := Ideal) V c).arrAt_eq_of_cover 2 _ (fun t _ => flushed_eq V c t) tiled

end Cert.KernelIdeal.Region4

end
-- ==== Proof.Region5.lean ====
/-
  The sixth launch's output array, as one function of its three input arrays.
  The launch walks ten blocks of ten thousand rows. At block t it reads rows [10000 t, 10000 t + 10000) of the
  features, the whole 64 × 64 weight matrix and the whole bias row, and writes the same rows of the output; the blocks
  tile the output, so the array it leaves is, entry (r, q), the dot product of feature row r with weight column q plus
  the bias at q — whatever block r falls in.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the weights and
    the bias row whole. -/
theorem blockIndex : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The dense layer of whole arrays: entry (r, q) is row r of `A0` against column q of `A1`, plus `A2` at (0, q). -/
def layer (A0 : (⟨S100000x64, .f32⟩ : BufTy).Contents (Elt Ideal)) (A1 : (⟨S64x64, .f32⟩ : BufTy).Contents (Elt Ideal))
    (A2 : (⟨S1x64, .f32⟩ : BufTy).Contents (Elt Ideal)) : (⟨S100000x64, .f32⟩ : BufTy).Contents (Elt Ideal) :=
  fun i => dense (fun k : Fin 64 => A0 (ix2 (⟨(i 0).val, (i 0).isLt⟩ : Fin 100000) k))
    (fun k : Fin 64 => A1 (ix2 k (⟨(i 1).val, (i 1).isLt⟩ : Fin 64))) (A2 (ix2 (0 : Fin 1) (⟨(i 1).val, (i 1).isLt⟩ : Fin 64)))

/-- What point t writes back is block t of the dense layer of the input arrays. -/
theorem flushed_eq (c : Dev nD) (t : Fin cfg5.N) :
    (dat5 (F := Ideal) V c).flushed 3 t = ((cfg5.win 3).blk t).view.read (Elt Ideal) (layer (V c main_v67) (V c main_arg8) (V c main_v69)) := by
  show (cfg5.win 3).cut (grid5.coords t) ((dat5 (F := Ideal) V c).after 3 t) = _
  rw [after5_3]
  unfold out5_3
  rw [View.canon_unit_zero zeros2]
  simp only [View.ld_unit_zero (S := S10000x64) zeros2, View.ld_unit_zero (S := S64x64) zeros2, View.ld_unit_zero (S := S1x64) zeros2]
  obtain ⟨e00, e01, e10, e11, e20, e21, e30, e31⟩ := blockIndex t
  funext j
  obtain ⟨p, q, rfl⟩ : ∃ (p : Fin 10000) (q : Fin 64), j = ix2 p q := ⟨j 0, j 1, eq_ix2 j⟩
  show k5_pay1 (F := Ideal) (iblk5 V c 0 t) (iblk5 V c 1 t) (iblk5 V c 2 t) (ix2 p q)
    = layer (V c main_v67) (V c main_arg8) (V c main_v69) (((cfg5.win 3).blk t).view.emb (ix2 p q))
  refine (Cert.KernelIdeal.Payloads.pay5_apply (iblk5 V c 0 t) (iblk5 V c 1 t) (iblk5 V c 2 t) p q).trans ?_
  have h0 : ∀ k : Fin 64, iblk5 V c 0 t (ix2 p k)
      = V c main_v67 (ix2 (⟨((((cfg5.win 3).blk t).view.emb (ix2 p q)) 0).val, ((((cfg5.win 3).blk t).view.emb (ix2 p q)) 0).isLt⟩ : Fin 100000) k) := fun k => by
    show V c main_v67 (((cfg5.win 0).blk t).view.emb (ix2 p k)) = _
    refine congrArg _ ?_
    funext a; apply Fin.ext
    match a with
    | ⟨0, _⟩ => show win5_0.index t (0 : Fin 2) * 10000 + 1 * p.val = win5_3.index t (0 : Fin 2) * 10000 + 1 * p.val; omega
    | ⟨1, _⟩ => show win5_0.index t (1 : Fin 2) * 64 + 1 * k.val = k.val; omega
  have h1 : ∀ k : Fin 64, iblk5 V c 1 t (ix2 k q)
      = V c main_arg8 (ix2 k (⟨((((cfg5.win 3).blk t).view.emb (ix2 p q)) 1).val, ((((cfg5.win 3).blk t).view.emb (ix2 p q)) 1).isLt⟩ : Fin 64)) := fun k => by
    show V c main_arg8 (((cfg5.win 1).blk t).view.emb (ix2 k q)) = _
    refine congrArg _ ?_
    funext a; apply Fin.ext
    match a with
    | ⟨0, _⟩ => show win5_1.index t (0 : Fin 2) * 64 + 1 * k.val = k.val; omega
    | ⟨1, _⟩ => show win5_1.index t (1 : Fin 2) * 64 + 1 * q.val = win5_3.index t (1 : Fin 2) * 64 + 1 * q.val; omega
  have h2 : iblk5 V c 2 t (ix2 (0 : Fin 1) q)
      = V c main_v69 (ix2 (0 : Fin 1) (⟨((((cfg5.win 3).blk t).view.emb (ix2 p q)) 1).val, ((((cfg5.win 3).blk t).view.emb (ix2 p q)) 1).isLt⟩ : Fin 64)) := by
    show V c main_v69 (((cfg5.win 2).blk t).view.emb (ix2 (0 : Fin 1) q)) = _
    refine congrArg _ ?_
    funext a; apply Fin.ext
    match a with
    | ⟨0, _⟩ => show win5_2.index t (0 : Fin 2) * 1 + 1 * (0 : Fin 1).val = (0 : Fin 1).val; omega
    | ⟨1, _⟩ => show win5_2.index t (1 : Fin 2) * 64 + 1 * q.val = win5_3.index t (1 : Fin 2) * 64 + 1 * q.val; omega
  exact congr (congr (congrArg dense (funext h0)) (funext h1)) h2

/-- An index of the output lies in point t's block iff each coordinate lies in the block's range on its axis. -/
theorem mem_block (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v70).slice (win5_3.rect t)).set ↔ _
  rw [View.set_slice_whole, Rect.mem_set_unit]
  exact Iff.rfl

/-- The ten blocks tile the output: row r lies in block r / 10000. -/
theorem tiled (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 10 := N_5
  have ht : (i 0).val / 10000 < grid5.N := by omega
  obtain ⟨e00, e01, e10, e11, e20, e21, e30, e31⟩ := blockIndex ⟨(i 0).val / 10000, ht⟩
  refine ⟨⟨(i 0).val / 10000, ht⟩, flush5_3 _, ?_⟩
  rw [mem_block]
  intro a
  match a with
  | ⟨0, _⟩ =>
    show win5_3.index ⟨(i 0).val / 10000, ht⟩ (0 : Fin 2) * 10000 ≤ (i 0).val ∧ (i 0).val < win5_3.index ⟨(i 0).val / 10000, ht⟩ (0 : Fin 2) * 10000 + 10000
    have e : win5_3.index ⟨(i 0).val / 10000, ht⟩ (0 : Fin 2) = (i 0).val / 10000 := e30
    omega
  | ⟨1, _⟩ =>
    show win5_3.index ⟨(i 0).val / 10000, ht⟩ (1 : Fin 2) * 64 ≤ (i 1).val ∧ (i 1).val < win5_3.index ⟨(i 0).val / 10000, ht⟩ (1 : Fin 2) * 64 + 64
    omega

/-- The output array after the launch is the dense layer of the three input arrays as the launch found them. -/
theorem array_eq (c : Dev nD) :
    (dat5 (F := Ideal) V c).arrAt 3 cfg5.N = layer (V c main_v67) (V c main_arg8) (V c main_v69) :=
  (dat5 (F := Ideal) V c).arrAt_eq_of_cover 3 _ (fun t _ => flushed_eq V c t) tiled

end Cert.KernelIdeal.Region5

end
-- ==== Proof.Region6.lean ====
/-
  The last launch's output array, as one function of its two input arrays.
  The launch walks ten blocks of ten thousand rows. At block t it reads rows [10000 t, 10000 t + 10000) of the
  features and the whole bias row, and writes the same rows of the output; the blocks tile the output, so the array it
  leaves is, entry (r, q), entry q of the biased feature row r divided by that row's clipped Euclidean length —
  whatever block r falls in. A whole row lies in one block, so the row's length is computed from that block alone.
-/
import proofs.«152028_j26912265077117_1_alg».proof.Proof.Gen.KernelIdeal.Frame
import proofs.«152028_j26912265077117_1_alg».proof.Proof.Spec
import proofs.«152028_j26912265077117_1_alg».proof.Proof.KernelPayloads
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point t: the features' and the output's at block row t, the bias row whole. -/
theorem blockIndex : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The normalized biased rows of whole arrays: entry (r, q) is entry q of row r of `A0` plus the row `A1`, divided by
    that row's clipped Euclidean length. -/
def layer (A0 : (⟨S100000x64, .f32⟩ : BufTy).Contents (Elt Ideal)) (A1 : (⟨S1x64, .f32⟩ : BufTy).Contents (Elt Ideal)) :
    (⟨S100000x64, .f32⟩ : BufTy).Contents (Elt Ideal) :=
  fun i => unitRow (fun j : Fin 64 => A0 (ix2 (⟨(i 0).val, (i 0).isLt⟩ : Fin 100000) j) + A1 (ix2 (0 : Fin 1) j))
    (⟨(i 1).val, (i 1).isLt⟩ : Fin 64)

/-- What point t writes back is block t of that function of the input arrays. -/
theorem flushed_eq (c : Dev nD) (t : Fin cfg6.N) :
    (dat6 (F := Ideal) V c).flushed 2 t = ((cfg6.win 2).blk t).view.read (Elt Ideal) (layer (V c main_v83) (V c main_v84)) := by
  show (cfg6.win 2).cut (grid6.coords t) ((dat6 (F := Ideal) V c).after 2 t) = _
  rw [after6_2]
  unfold out6_2
  rw [View.canon_unit_zero zeros2]
  simp only [View.ld_unit_zero (S := S10000x64) zeros2, View.ld_unit_zero (S := S1x64) zeros2]
  obtain ⟨e00, e01, e10, e11, e20, e21⟩ := blockIndex t
  funext j
  obtain ⟨p, q, rfl⟩ : ∃ (p : Fin 10000) (q : Fin 64), j = ix2 p q := ⟨j 0, j 1, eq_ix2 j⟩
  show k6_pay1 (F := Ideal) (iblk6 V c 0 t) (iblk6 V c 1 t) (ix2 p q)
    = layer (V c main_v83) (V c main_v84) (((cfg6.win 2).blk t).view.emb (ix2 p q))
  refine (Cert.KernelIdeal.Payloads.pay6_apply (iblk6 V c 0 t) (iblk6 V c 1 t) p q).trans ?_
  have h0 : ∀ k : Fin 64, iblk6 V c 0 t (ix2 p k)
      = V c main_v83 (ix2 (⟨((((cfg6.win 2).blk t).view.emb (ix2 p q)) 0).val, ((((cfg6.win 2).blk t).view.emb (ix2 p q)) 0).isLt⟩ : Fin 100000) k) := fun k => by
    show V c main_v83 (((cfg6.win 0).blk t).view.emb (ix2 p k)) = _
    refine congrArg _ ?_
    funext a; apply Fin.ext
    match a with
    | ⟨0, _⟩ => show win6_0.index t (0 : Fin 2) * 10000 + 1 * p.val = win6_2.index t (0 : Fin 2) * 10000 + 1 * p.val; omega
    | ⟨1, _⟩ => show win6_0.index t (1 : Fin 2) * 64 + 1 * k.val = k.val; omega
  have h1 : ∀ k : Fin 64, iblk6 V c 1 t (ix2 (0 : Fin 1) k) = V c main_v84 (ix2 (0 : Fin 1) k) := fun k => by
    show V c main_v84 (((cfg6.win 1).blk t).view.emb (ix2 (0 : Fin 1) k)) = _
    refine congrArg _ ?_
    funext a; apply Fin.ext
    match a with
    | ⟨0, _⟩ => show win6_1.index t (0 : Fin 2) * 1 + 1 * (0 : Fin 1).val = (0 : Fin 1).val; omega
    | ⟨1, _⟩ => show win6_1.index t (1 : Fin 2) * 64 + 1 * k.val = k.val; omega
  have hq : q = (⟨((((cfg6.win 2).blk t).view.emb (ix2 p q)) 1).val, ((((cfg6.win 2).blk t).view.emb (ix2 p q)) 1).isLt⟩ : Fin 64) := by
    apply Fin.ext
    show q.val = win6_2.index t (1 : Fin 2) * 64 + 1 * q.val
    omega
  exact congr (congrArg unitRow (funext fun k => congr (congrArg (fun x y : EReal => x + y) (h0 k)) (h1 k))) hq

/-- An index of the output lies in point t's block iff each coordinate lies in the block's range on its axis. -/
theorem mem_block (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v85).slice (win6_2.rect t)).set ↔ _
  rw [View.set_slice_whole, Rect.mem_set_unit]
  exact Iff.rfl

/-- The ten blocks tile the output: row r lies in block r / 10000. -/
theorem tiled (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 10 := N_6
  have ht : (i 0).val / 10000 < grid6.N := by omega
  obtain ⟨e00, e01, e10, e11, e20, e21⟩ := blockIndex ⟨(i 0).val / 10000, ht⟩
  refine ⟨⟨(i 0).val / 10000, ht⟩, flush6_2 _, ?_⟩
  rw [mem_block]
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    have e : win6_2.index ⟨(i 0).val / 10000, ht⟩ (0 : Fin 2) = (i 0).val / 10000 := e20
    omega
  | ⟨1, _⟩ =>
    show win6_2.index ⟨(i 0).val / 10000, ht⟩ (1 : Fin 2) * 64 ≤ (i 1).val ∧ (i 1).val < win6_2.index ⟨(i 0).val / 10000, ht⟩ (1 : Fin 2) * 64 + 64
    omega

/-- The output array after the launch is that function of the two input arrays as the launch found them. -/
theorem array_eq (c : Dev nD) :
    (dat6 (F := Ideal) V c).arrAt 2 cfg6.N = layer (V c main_v83) (V c main_v84) :=
  (dat6 (F := Ideal) V c).arrAt_eq_of_cover 2 _ (fun t _ => flushed_eq V c t) tiled

end Cert.KernelIdeal.Region6

end
-- ==== Proof.RefStages.lean ====
/-
  The reference program's dense stages, each read at one entry (r, q) of its result.
  Every such stage is one of the four entry-wise functions of the specification: a dot product of a
  feature row with a weight column (with a bias for the first layer), a bias followed by the positive
  part, and a row divided by its clipped Euclidean length.  Each statement unfolds the stage's
  operations down to the operands at an entry, identifies the composed index maps of the broadcasts
  and contractions with the coordinates (r, k), (k, q), (q), and reads the result as the
  specification's function.
-/
import proofs.«152028_j26912265077117_1_alg».proof.Proof.RefReadP
import proofs.«152028_j26912265077117_1_alg».proof.Proof.Spec

noncomputable section

namespace Cert.ReferenceIdeal.Stages

open Idealize.ShloMosaic Idealize.ShloMosaic.ValueIdx Cert.ReferenceIdeal Cert.ReferenceIdeal.ReadP Cert.GcnSpec

variable (x0 : (⟨S100000x128, .f32⟩ : BufTy).Contents (Elt Ideal))
  (x1 : (⟨S2x1600000, .i32⟩ : BufTy).Contents (Elt Ideal))
  (x2 : (⟨S128x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))
  (x6 : (⟨S64x64, .f32⟩ : BufTy).Contents (Elt Ideal))
  (x7 : (⟨S64, .f32⟩ : BufTy).Contents (Elt Ideal))
  (x8 : (⟨S64x64, .f32⟩ : BufTy).Contents (Elt Ideal))
  (x9 : (⟨S64, .f32⟩ : BufTy).Contents (Elt Ideal))

/-- The second layer's activation: the aggregated value plus the bias of its column, then the positive part.
    The bias reaches the entry through two broadcasts, [64] → [1,64] → [100000,64], whose composed index map
    sends (r, q) to (q); the zero compared with is the broadcast scalar 0. The aggregated value enters only as
    a value: it is named before anything is compared. -/
theorem v51_apply (r : Fin 100000) (q : Fin 64) :
    val_main_v51 (F := Ideal) x0 x1 x2 x3 x4 x5 (ix2 r q)
      = reluBias (val_main_v47 (F := Ideal) x0 x1 x2 x3 x4 (ix2 r q)) (x5 (ix1 q)) := by
  rw [val_main_v51_apply, val_main_v50_apply, val_main_call1_v0_apply, val_main_call1_cst_apply,
    val_main_v49_apply, val_main_v48_apply]
  generalize val_main_v47 (F := Ideal) x0 x1 x2 x3 x4 = H
  have e : idx_main_v48 (idx_main_v49 (ix2 r q)) = ix1 q :=
    funext fun a => Fin.ext (by match a with | ⟨0, _⟩ => rfl)
  simp only [e, Ideal.addf_def, Ideal.maximumf_def, Ideal.ofBits_def, Ideal.ofBits_zero_f32]
  rfl

/-- The third layer's activation: the same reading, with the third layer's aggregated value and bias. -/
theorem v69_apply (r : Fin 100000) (q : Fin 64) :
    val_main_v69 (F := Ideal) x0 x1 x2 x3 x4 x5 x6 x7 (ix2 r q)
      = reluBias (val_main_v65 (F := Ideal) x0 x1 x2 x3 x4 x5 x6 (ix2 r q)) (x7 (ix1 q)) := by
  rw [val_main_v69_apply, val_main_v68_apply, val_main_call2_v0_apply, val_main_call2_cst_apply,
    val_main_v67_apply, val_main_v66_apply]
  generalize val_main_v65 (F := Ideal) x0 x1 x2 x3 x4 x5 x6 = H
  have e : idx_main_v66 (idx_main_v67 (ix2 r q)) = ix1 q :=
    funext fun a => Fin.ext (by match a with | ⟨0, _⟩ => rfl)
  simp only [e, Ideal.addf_def, Ideal.maximumf_def, Ideal.ofBits_def, Ideal.ofBits_zero_f32]
  rfl

/-- The first layer's entry: the features' row r against the weights' column q, plus that column's bias.
    The contraction's two index maps at (r, q) are k ↦ (r, k) and k ↦ (k, q). -/
theorem v33_apply (r : Fin 100000) (q : Fin 64) :
    val_main_v33 (F := Ideal) x0 x2 x3 (ix2 r q)
      = dense (fun k : Fin 128 => x0 (ix2 r k)) (fun k => x2 (ix2 k q)) (x3 (ix1 q)) := by
  rw [val_main_v33_apply, val_main_v30_apply, val_main_v32_apply, val_main_v31_apply]
  have e : idx_main_v31 (idx_main_v32 (ix2 r q)) = ix1 q :=
    funext fun a => Fin.ext (by match a with | ⟨0, _⟩ => rfl)
  have el : ∀ k : Fin 128, lidx_main_v30 (ix2 r q) k = ix2 r k := fun k =>
    funext fun a => Fin.ext (by match a with | ⟨0, _⟩ => rfl | ⟨1, _⟩ => rfl)
  have er : ∀ k : Fin 128, ridx_main_v30 (ix2 r q) k = ix2 k q := fun k =>
    funext fun a => Fin.ext (by match a with | ⟨0, _⟩ => rfl | ⟨1, _⟩ => rfl)
  simp only [e, el, er, Ideal.addf_def]
  rfl

/-- The second layer's product before aggregation: the first layer's row r against the second weights' column q. The first layer enters only as an array of values. -/
theorem v34_apply (r : Fin 100000) (q : Fin 64) :
    val_main_v34 (F := Ideal) x0 x2 x3 x4 (ix2 r q)
      = dotRow (fun k : Fin 64 => val_main_v33 (F := Ideal) x0 x2 x3 (ix2 r k)) (fun k => x4 (ix2 k q)) := by
  rw [val_main_v34_apply]
  generalize val_main_v33 (F := Ideal) x0 x2 x3 = H
  have el : ∀ k : Fin 64, lidx_main_v34 (ix2 r q) k = ix2 r k := fun k =>
    funext fun a => Fin.ext (by match a with | ⟨0, _⟩ => rfl | ⟨1, _⟩ => rfl)
  have er : ∀ k : Fin 64, ridx_main_v34 (ix2 r q) k = ix2 k q := fun k =>
    funext fun a => Fin.ext (by match a with | ⟨0, _⟩ => rfl | ⟨1, _⟩ => rfl)
  simp only [el, er]
  rfl

/-- The third layer's product before aggregation: the second activation's row r against the third weights' column q. -/
theorem v52_apply (r : Fin 100000) (q : Fin 64) :
    val_main_v52 (F := Ideal) x0 x1 x2 x3 x4 x5 x6 (ix2 r q)
      = dotRow (fun k : Fin 64 => val_main_v51 (F := Ideal) x0 x1 x2 x3 x4 x5 (ix2 r k)) (fun k => x6 (ix2 k q)) := by
  rw [val_main_v52_apply]
  generalize val_main_v51 (F := Ideal) x0 x1 x2 x3 x4 x5 = H
  have el : ∀ k : Fin 64, lidx_main_v52 (ix2 r q) k = ix2 r k := fun k =>
    funext fun a => Fin.ext (by match a with | ⟨0, _⟩ => rfl | ⟨1, _⟩ => rfl)
  have er : ∀ k : Fin 64, ridx_main_v52 (ix2 r q) k = ix2 k q := fun k =>
    funext fun a => Fin.ext (by match a with | ⟨0, _⟩ => rfl | ⟨1, _⟩ => rfl)
  simp only [el, er]
  rfl

/-- The last layer's product before aggregation: the third activation's row r against the last weights' column q. -/
theorem v70_apply (r : Fin 100000) (q : Fin 64) :
    val_main_v70 (F := Ideal) x0 x1 x2 x3 x4 x5 x6 x7 x8 (ix2 r q)
      = dotRow (fun k : Fin 64 => val_main_v69 (F := Ideal) x0 x1 x2 x3 x4 x5 x6 x7 (ix2 r k)) (fun k => x8 (ix2 k q)) := by
  rw [val_main_v70_apply]
  generalize val_main_v69 (F := Ideal) x0 x1 x2 x3 x4 x5 x6 x7 = H
  have el : ∀ k : Fin 64, lidx_main_v70 (ix2 r q) k = ix2 r k := fun k =>
    funext fun a => Fin.ext (by match a with | ⟨0, _⟩ => rfl | ⟨1, _⟩ => rfl)
  have er : ∀ k : Fin 64, ridx_main_v70 (ix2 r q) k = ix2 k q := fun k =>
    funext fun a => Fin.ext (by match a with | ⟨0, _⟩ => rfl | ⟨1, _⟩ => rfl)
  simp only [el, er]
  rfl

/-- The last layer's entry before the row is normalised: the aggregated value plus the bias of its column. -/
theorem v86_apply (r : Fin 100000) (j : Fin 64) :
    val_main_v86 (F := Ideal) x0 x1 x2 x3 x4 x5 x6 x7 x8 x9 (ix2 r j)
      = val_main_v83 (F := Ideal) x0 x1 x2 x3 x4 x5 x6 x7 x8 (ix2 r j) + x9 (ix1 j) := by
  have e : idx_main_v84 (idx_main_v85 (ix2 r j)) = ix1 j :=
    funext fun a => Fin.ext (by match a with | ⟨0, _⟩ => rfl)
  rw [val_main_v86_apply]
  generalize val_main_v83 (F := Ideal) x0 x1 x2 x3 x4 x5 x6 x7 x8 = H
  rw [val_main_v85_apply, val_main_v84_apply, Ideal.addf_def, e]

end Cert.ReferenceIdeal.Stages

end
-- ==== Proof.Chain.lean ====
/-
  The idealized kernel's buffers at each boundary of its run ARE the reference's stages.
  Walking the run's boundaries in order: each launch's output array is a dense stage of its input arrays (the
  launch modules), each stretch of host operations between launches is an aggregation over the edge list or a
  relayout of a bias, and at every step the buffer just written is shown equal to the stage of the reference that
  computes the same thing from the same arguments. The last step is the result array.
-/
import proofs.«152028_j26912265077117_1_alg».proof.Proof.KPrelude
import proofs.«152028_j26912265077117_1_alg».proof.Proof.Region0
import proofs.«152028_j26912265077117_1_alg».proof.Proof.Region1
import proofs.«152028_j26912265077117_1_alg».proof.Proof.Region2
import proofs.«152028_j26912265077117_1_alg».proof.Proof.Region3
import proofs.«152028_j26912265077117_1_alg».proof.Proof.Region4
import proofs.«152028_j26912265077117_1_alg».proof.Proof.Region5
import proofs.«152028_j26912265077117_1_alg».proof.Proof.Region6
import proofs.«152028_j26912265077117_1_alg».proof.Proof.RefStages

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Keep Cert.KernelIdeal.Prelude Cert.GcnSpec
open Cert.ReferenceIdeal.ReadP Cert.ReferenceIdeal.Stages

variable (m : (ℓ : Loc nD τ sig) → Buf (Elt Ideal) ℓ) (ρ : Dev nD → PrngReg) (c : Dev nD)

/-! ## The feature layer: the first launch -/

theorem dense0 : W4 m ρ c (Proc.devRef .tc main_v31) = val_main_v33 (F := Ideal) (m ((c : Thread nD τ).loc main_arg0)) (m ((c : Thread nD τ).loc main_arg2)) (m ((c : Thread nD τ).loc main_arg3)) := by
  have hA : W4 m ρ c (Proc.devRef .tc main_v31)
      = Region0.layer (V3 m ρ c main_arg0) (V3 m ρ c main_arg2) (V3 m ρ c main_v30) :=
    (W4_arr m ρ c 3).trans (Region0.array_eq (V3 m ρ) c)
  rw [hA]
  funext i
  obtain ⟨r, q, rfl⟩ : ∃ (r : Fin 100000) (q : Fin 64), i = ix2 r q := ⟨i 0, i 1, eq_ix2 i⟩
  rw [v33_apply]
  show dense (fun k : Fin 128 => V3 m ρ c main_arg0 (ix2 r k)) (fun k : Fin 128 => V3 m ρ c main_arg2 (ix2 k q))
      (V3 m ρ c main_v30 (ix2 (0 : Fin 1) q)) = _
  have e0 : V3 m ρ c main_arg0 = (m ((c : Thread nD τ).loc main_arg0)) := keep_main_arg0_3_0 m ρ c
  have e2 : V3 m ρ c main_arg2 = (m ((c : Thread nD τ).loc main_arg2)) := keep_main_arg2_3_0 m ρ c
  have eb : V3 m ρ c main_v30 (ix2 (0 : Fin 1) q) = (m ((c : Thread nD τ).loc main_arg3)) (ix1 q) := bias_W3 m ρ c q
  rw [e0, e2, eb]

/-! ## Convolution 1: the linear launch, the aggregation over the edge list, the bias and the positive part -/

/-- The bias handed to the linear launch is the zero row. -/
theorem zrow1 (q : Fin 64) : W5 m ρ c (Proc.devRef .tc main_v33) (ix2 (0 : Fin 1) q) = (0 : EReal) := by
  have h : W5 m ρ c (Proc.devRef .tc main_v33)
      = shapeCast S1x64 (broadcastInDim S64 ![] bcast_S_S64 (constant (F := Ideal) S_ .f32 0x00000000#32)) shapeCasts_S64_S1x64 := by
    show StableHlo.after hostOps1 (W4 m ρ c) (Proc.devRef .tc main_v33) = _
    after_results_simp
    rfl
  rw [h, shapeCast_a_1a_apply]
  show Ideal.ofBits .f32 0x00000000#32 = 0
  exact Ideal.ofBits_zero_f32

/-- The linear launch: features times weights, no bias — the reference's product stage. -/
theorem lin1 : W6 m ρ c (Proc.devRef .tc main_v34) = val_main_v34 (F := Ideal) (m ((c : Thread nD τ).loc main_arg0)) (m ((c : Thread nD τ).loc main_arg2)) (m ((c : Thread nD τ).loc main_arg3)) (m ((c : Thread nD τ).loc main_arg4)) := by
  have hA : W6 m ρ c (Proc.devRef .tc main_v34)
      = Region1.layer (V5 m ρ c main_v31) (V5 m ρ c main_arg4) (V5 m ρ c main_v33) :=
    (W6_arr m ρ c 3).trans (Region1.array_eq (V5 m ρ) c)
  rw [hA]
  funext i
  obtain ⟨r, q, rfl⟩ : ∃ (r : Fin 100000) (q : Fin 64), i = ix2 r q := ⟨i 0, i 1, eq_ix2 i⟩
  rw [v34_apply]
  show dense (fun k : Fin 64 => V5 m ρ c main_v31 (ix2 r k)) (fun k : Fin 64 => V5 m ρ c main_arg4 (ix2 k q))
      (V5 m ρ c main_v33 (ix2 (0 : Fin 1) q)) = _
  have e0 : V5 m ρ c main_v31 = val_main_v33 (F := Ideal) (m ((c : Thread nD τ).loc main_arg0)) (m ((c : Thread nD τ).loc main_arg2)) (m ((c : Thread nD τ).loc main_arg3)) :=
    (show W5 m ρ c (Proc.devRef .tc main_v31) = W4 m ρ c (Proc.devRef .tc main_v31) from by host_keep hostOps1).trans (dense0 m ρ c)
  have e1 : V5 m ρ c main_arg4 = (m ((c : Thread nD τ).loc main_arg4)) := keep_main_arg4_5_0 m ρ c
  have ez : V5 m ρ c main_v33 (ix2 (0 : Fin 1) q) = (0 : EReal) := zrow1 m ρ c q
  rw [e0, e1, ez, dense_zero]

/-- The aggregation: rows gathered at the source column, scaled by the per-edge factor, summed at the destination. -/
theorem agg1 : W7 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v47) = _
  after_results_simp
  rw [lin1 m ρ c, (keep_main_v3_6_3 m ρ c).trans (src_W3 m ρ c), (keep_main_v6_6_3 m ρ c).trans (dst_W3 m ρ c),
    (keep_main_v29_6_3 m ρ c).trans (norm_W3 m ρ c)]
  all_goals rfl

/-- This layer's bias, laid out as a one-row matrix, reads at (0, q) the bias at q. -/
theorem brow1 (q : Fin 64) : W7 m ρ c (Proc.devRef .tc main_v48) (ix2 (0 : Fin 1) q) = (m ((c : Thread nD τ).loc main_arg5)) (ix1 q) := by
  have h : W7 m ρ c (Proc.devRef .tc main_v48) = shapeCast S1x64 (W6 m ρ c (Proc.devRef .tc main_arg5)) shapeCasts_S64_S1x64 := by
    show StableHlo.after hostOps2 (W6 m ρ c) (Proc.devRef .tc main_v48) = _
    after_results_simp
    rfl
  rw [h, shapeCast_a_1a_apply, keep_main_arg5_6_0]
  all_goals rfl

/-- The bias launch: the bias added, then the positive part — the reference's activation stage. -/
theorem out1 : W8 m ρ c (Proc.devRef .tc main_v49) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hA : W8 m ρ c (Proc.devRef .tc main_v49) = Region2.layer (V7 m ρ c main_v47) (V7 m ρ c main_v48) :=
    (W8_arr m ρ c 2).trans (Region2.array_eq (V7 m ρ) c)
  rw [hA]
  funext i
  obtain ⟨r, q, rfl⟩ : ∃ (r : Fin 100000) (q : Fin 64), i = ix2 r q := ⟨i 0, i 1, eq_ix2 i⟩
  rw [v51_apply]
  show reluBias (V7 m ρ c main_v47 (ix2 r q)) (V7 m ρ c main_v48 (ix2 (0 : Fin 1) q)) = _
  have e0 : V7 m ρ c main_v47 = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := agg1 m ρ c
  have e1 : V7 m ρ c main_v48 (ix2 (0 : Fin 1) q) = (m ((c : Thread nD τ).loc main_arg5)) (ix1 q) := brow1 m ρ c q
  rw [e0, e1]

/-! ## Convolution 2: the linear launch, the aggregation over the edge list, the bias and the positive part -/

/-- The bias handed to the linear launch is the zero row. -/
theorem zrow2 (q : Fin 64) : W9 m ρ c (Proc.devRef .tc main_v51) (ix2 (0 : Fin 1) q) = (0 : EReal) := by
  have h : W9 m ρ c (Proc.devRef .tc main_v51)
      = shapeCast S1x64 (broadcastInDim S64 ![] bcast_S_S64 (constant (F := Ideal) S_ .f32 0x00000000#32)) shapeCasts_S64_S1x64 := by
    show StableHlo.after hostOps3 (W8 m ρ c) (Proc.devRef .tc main_v51) = _
    after_results_simp
    rfl
  rw [h, shapeCast_a_1a_apply]
  show Ideal.ofBits .f32 0x00000000#32 = 0
  exact Ideal.ofBits_zero_f32

/-- The linear launch: features times weights, no bias — the reference's product stage. -/
theorem lin2 : W10 m ρ c (Proc.devRef .tc main_v52) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hA : W10 m ρ c (Proc.devRef .tc main_v52)
      = Region3.layer (V9 m ρ c main_v49) (V9 m ρ c main_arg6) (V9 m ρ c main_v51) :=
    (W10_arr m ρ c 3).trans (Region3.array_eq (V9 m ρ) c)
  rw [hA]
  funext i
  obtain ⟨r, q, rfl⟩ : ∃ (r : Fin 100000) (q : Fin 64), i = ix2 r q := ⟨i 0, i 1, eq_ix2 i⟩
  rw [v52_apply]
  show dense (fun k : Fin 64 => V9 m ρ c main_v49 (ix2 r k)) (fun k : Fin 64 => V9 m ρ c main_arg6 (ix2 k q))
      (V9 m ρ c main_v51 (ix2 (0 : Fin 1) q)) = _
  have e0 : V9 m ρ c main_v49 = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (show W9 m ρ c (Proc.devRef .tc main_v49) = W8 m ρ c (Proc.devRef .tc main_v49) from by host_keep hostOps3).trans (out1 m ρ c)
  have e1 : V9 m ρ c main_arg6 = (m ((c : Thread nD τ).loc main_arg6)) := keep_main_arg6_9_0 m ρ c
  have ez : V9 m ρ c main_v51 (ix2 (0 : Fin 1) q) = (0 : EReal) := zrow2 m ρ c q
  rw [e0, e1, ez, dense_zero]

/-- The aggregation: rows gathered at the source column, scaled by the per-edge factor, summed at the destination. -/
theorem agg2 : W11 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W10 m ρ c) (Proc.devRef .tc main_v65) = _
  after_results_simp
  rw [lin2 m ρ c, (keep_main_v3_10_3 m ρ c).trans (src_W3 m ρ c), (keep_main_v6_10_3 m ρ c).trans (dst_W3 m ρ c),
    (keep_main_v29_10_3 m ρ c).trans (norm_W3 m ρ c)]
  all_goals rfl

/-- This layer's bias, laid out as a one-row matrix, reads at (0, q) the bias at q. -/
theorem brow2 (q : Fin 64) : W11 m ρ c (Proc.devRef .tc main_v66) (ix2 (0 : Fin 1) q) = (m ((c : Thread nD τ).loc main_arg7)) (ix1 q) := by
  have h : W11 m ρ c (Proc.devRef .tc main_v66) = shapeCast S1x64 (W10 m ρ c (Proc.devRef .tc main_arg7)) shapeCasts_S64_S1x64 := by
    show StableHlo.after hostOps4 (W10 m ρ c) (Proc.devRef .tc main_v66) = _
    after_results_simp
    rfl
  rw [h, shapeCast_a_1a_apply, keep_main_arg7_10_0]
  all_goals rfl

/-- The bias launch: the bias added, then the positive part — the reference's activation stage. -/
theorem out2 : W12 m ρ c (Proc.devRef .tc main_v67) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hA : W12 m ρ c (Proc.devRef .tc main_v67) = Region4.layer (V11 m ρ c main_v65) (V11 m ρ c main_v66) :=
    (W12_arr m ρ c 2).trans (Region4.array_eq (V11 m ρ) c)
  rw [hA]
  funext i
  obtain ⟨r, q, rfl⟩ : ∃ (r : Fin 100000) (q : Fin 64), i = ix2 r q := ⟨i 0, i 1, eq_ix2 i⟩
  rw [v69_apply]
  show reluBias (V11 m ρ c main_v65 (ix2 r q)) (V11 m ρ c main_v66 (ix2 (0 : Fin 1) q)) = _
  have e0 : V11 m ρ c main_v65 = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := agg2 m ρ c
  have e1 : V11 m ρ c main_v66 (ix2 (0 : Fin 1) q) = (m ((c : Thread nD τ).loc main_arg7)) (ix1 q) := brow2 m ρ c q
  rw [e0, e1]

/-! ## Convolution 3: the linear launch, the aggregation over the edge list, the bias and the unit rows -/

/-- The bias handed to the linear launch is the zero row. -/
theorem zrow3 (q : Fin 64) : W13 m ρ c (Proc.devRef .tc main_v69) (ix2 (0 : Fin 1) q) = (0 : EReal) := by
  have h : W13 m ρ c (Proc.devRef .tc main_v69)
      = shapeCast S1x64 (broadcastInDim S64 ![] bcast_S_S64 (constant (F := Ideal) S_ .f32 0x00000000#32)) shapeCasts_S64_S1x64 := by
    show StableHlo.after hostOps5 (W12 m ρ c) (Proc.devRef .tc main_v69) = _
    after_results_simp
    rfl
  rw [h, shapeCast_a_1a_apply]
  show Ideal.ofBits .f32 0x00000000#32 = 0
  exact Ideal.ofBits_zero_f32

/-- The linear launch: features times weights, no bias — the reference's product stage. -/
theorem lin3 : W14 m ρ c (Proc.devRef .tc main_v70) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hA : W14 m ρ c (Proc.devRef .tc main_v70)
      = Region5.layer (V13 m ρ c main_v67) (V13 m ρ c main_arg8) (V13 m ρ c main_v69) :=
    (W14_arr m ρ c 3).trans (Region5.array_eq (V13 m ρ) c)
  rw [hA]
  funext i
  obtain ⟨r, q, rfl⟩ : ∃ (r : Fin 100000) (q : Fin 64), i = ix2 r q := ⟨i 0, i 1, eq_ix2 i⟩
  rw [v70_apply]
  show dense (fun k : Fin 64 => V13 m ρ c main_v67 (ix2 r k)) (fun k : Fin 64 => V13 m ρ c main_arg8 (ix2 k q))
      (V13 m ρ c main_v69 (ix2 (0 : Fin 1) q)) = _
  have e0 : V13 m ρ c main_v67 = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (show W13 m ρ c (Proc.devRef .tc main_v67) = W12 m ρ c (Proc.devRef .tc main_v67) from by host_keep hostOps5).trans (out2 m ρ c)
  have e1 : V13 m ρ c main_arg8 = (m ((c : Thread nD τ).loc main_arg8)) := keep_main_arg8_13_0 m ρ c
  have ez : V13 m ρ c main_v69 (ix2 (0 : Fin 1) q) = (0 : EReal) := zrow3 m ρ c q
  rw [e0, e1, ez, dense_zero]

/-- The aggregation: rows gathered at the source column, scaled by the per-edge factor, summed at the destination. -/
theorem agg3 : W15 m ρ c (Proc.devRef .tc main_v83) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W14 m ρ c) (Proc.devRef .tc main_v83) = _
  after_results_simp
  rw [lin3 m ρ c, (keep_main_v3_14_3 m ρ c).trans (src_W3 m ρ c), (keep_main_v6_14_3 m ρ c).trans (dst_W3 m ρ c),
    (keep_main_v29_14_3 m ρ c).trans (norm_W3 m ρ c)]
  all_goals rfl

/-- This layer's bias, laid out as a one-row matrix, reads at (0, q) the bias at q. -/
theorem brow3 (q : Fin 64) : W15 m ρ c (Proc.devRef .tc main_v84) (ix2 (0 : Fin 1) q) = (m ((c : Thread nD τ).loc main_arg9)) (ix1 q) := by
  have h : W15 m ρ c (Proc.devRef .tc main_v84) = shapeCast S1x64 (W14 m ρ c (Proc.devRef .tc main_arg9)) shapeCasts_S64_S1x64 := by
    show StableHlo.after hostOps6 (W14 m ρ c) (Proc.devRef .tc main_v84) = _
    after_results_simp
    rfl
  rw [h, shapeCast_a_1a_apply, keep_main_arg9_14_0]
  all_goals rfl

end Cert.KernelIdeal.Chain

end
-- ==== Proof.RefStagesNorm.lean ====
/-
  The reference program's last dense stage, read at one entry (r, q) of its result: every row of the last layer's
  output is divided by its Euclidean length, the length clipped below by a small constant.
  The stage squares the row entry by entry, sums the squares along the row from the scalar 0, takes the square root,
  clips it, and broadcasts it back along the row before the division. The row itself (the aggregated values plus the
  bias) is a long composed term; it enters the reading only as an array of values, so the statement is first reduced
  to one about two named arrays related entry by entry, and only then compared with the specification's function.
-/
import proofs.«152028_j26912265077117_1_alg».proof.Proof.RefStages

noncomputable section

namespace Cert.ReferenceIdeal.Stages

open Idealize.ShloMosaic Idealize.ShloMosaic.ValueIdx Cert.ReferenceIdeal Cert.ReferenceIdeal.ReadP Cert.GcnSpec

variable (x0 : (⟨S100000x128, .f32⟩ : BufTy).Contents (Elt Ideal))
  (x1 : (⟨S2x1600000, .i32⟩ : BufTy).Contents (Elt Ideal))
  (x2 : (⟨S128x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))
  (x6 : (⟨S64x64, .f32⟩ : BufTy).Contents (Elt Ideal))
  (x7 : (⟨S64, .f32⟩ : BufTy).Contents (Elt Ideal))
  (x8 : (⟨S64x64, .f32⟩ : BufTy).Contents (Elt Ideal))
  (x9 : (⟨S64, .f32⟩ : BufTy).Contents (Elt Ideal))

/-- The result: entry q of row r divided by the row's Euclidean length, the length clipped below by the
    small constant.  The sum of squares starts from the scalar 0 and runs over the row's 64 entries (its index map at
    row r is k ↦ (r, k)); the length is broadcast back along the row, [100000] → [100000,1] → [100000,64].
    The row before normalisation and the aggregated values enter only as arrays of values: both are named, with the
    relation between them (the bias added), before the two sides are compared. -/
theorem v91_apply (r : Fin 100000) (q : Fin 64) :
    val_main_v91 (F := Ideal) x0 x1 x2 x3 x4 x5 x6 x7 x8 x9 (ix2 r q)
      = unitRow (fun j : Fin 64 => val_main_v83 (F := Ideal) x0 x1 x2 x3 x4 x5 x6 x7 x8 (ix2 r j) + x9 (ix1 j)) q := by
  have ek : ∀ k : Fin 64, idx_main_call3_v1 (idx_main_call3_v2 (idx_main_v90 (ix2 r q))) k = ix2 r k := fun k =>
    funext fun a => Fin.ext (by match a with | ⟨0, _⟩ => rfl | ⟨1, _⟩ => rfl)
  have hrow : ∀ j : Fin 64, val_main_v86 (F := Ideal) x0 x1 x2 x3 x4 x5 x6 x7 x8 x9 (ix2 r j)
      = val_main_v83 (F := Ideal) x0 x1 x2 x3 x4 x5 x6 x7 x8 (ix2 r j) + x9 (ix1 j) := fun j => v86_apply x0 x1 x2 x3 x4 x5 x6 x7 x8 x9 r j
  have hsum : (∑ k : Fin 64, (val_main_call3_v0 (F := Ideal) x0 x1 x2 x3 x4 x5 x6 x7 x8 x9) (idx_main_call3_v1 (idx_main_call3_v2 (idx_main_v90 (ix2 r q))) k))
      = ∑ k : Fin 64, FloatOps.mulf (F := Ideal) (φ := .f32) (val_main_v86 (F := Ideal) x0 x1 x2 x3 x4 x5 x6 x7 x8 x9 (ix2 r k)) (val_main_v86 (F := Ideal) x0 x1 x2 x3 x4 x5 x6 x7 x8 x9 (ix2 r k)) :=
    Finset.sum_congr rfl fun k _ => by rw [ek k, val_main_call3_v0_apply]
  rw [val_main_v91_apply, val_main_v90_apply, val_main_v89_apply, val_main_v88_apply, val_main_cst_15_apply,
    val_main_v87_apply, val_main_call3_v2_apply, val_main_call3_v1_apply, val_main_call3_cst_apply, hsum]
  generalize val_main_v86 (F := Ideal) x0 x1 x2 x3 x4 x5 x6 x7 x8 x9 = G at hrow ⊢
  generalize val_main_v83 (F := Ideal) x0 x1 x2 x3 x4 x5 x6 x7 x8 = H at hrow ⊢
  simp only [hrow, Ideal.hostDivf_def, Ideal.maximumf_def,
    Ideal.hostUnary_sqrt_def, Ideal.mulf_def, Ideal.ofBits_def, Ideal.ofBits_zero_f32, zero_add]
  rfl

end Cert.ReferenceIdeal.Stages

end
-- ==== Proof.ChainOut.lean ====
/-
  The last launch's output is the reference's result.
  The last launch adds the last layer's bias to the aggregated rows and divides each row by its Euclidean length,
  clipped below by a small constant; the reference's last stage is the same function of the same row, so the
  kernel's result array is the reference's result stage of the kernel's own arguments.
-/
import proofs.«152028_j26912265077117_1_alg».proof.Proof.Chain
import proofs.«152028_j26912265077117_1_alg».proof.Proof.RefStagesNorm

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Keep Cert.KernelIdeal.Prelude Cert.GcnSpec
open Cert.ReferenceIdeal.ReadP Cert.ReferenceIdeal.Stages

variable (m : (ℓ : Loc nD τ sig) → Buf (Elt Ideal) ℓ) (ρ : Dev nD → PrngReg) (c : Dev nD)

/-- The last launch: the bias added and each row divided by its clipped length — the reference's result. -/
theorem out3 : W16 m ρ c (Proc.devRef .tc main_v85) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hA : W16 m ρ c (Proc.devRef .tc main_v85) = Region6.layer (V15 m ρ c main_v83) (V15 m ρ c main_v84) :=
    (W16_arr m ρ c 2).trans (Region6.array_eq (V15 m ρ) c)
  rw [hA]
  funext i
  obtain ⟨r, q, rfl⟩ : ∃ (r : Fin 100000) (q : Fin 64), i = ix2 r q := ⟨i 0, i 1, eq_ix2 i⟩
  rw [v91_apply]
  show unitRow (fun j : Fin 64 => (fun a b : EReal => a + b) (V15 m ρ c main_v83 (ix2 r j)) (V15 m ρ c main_v84 (ix2 (0 : Fin 1) j))) q = _
  have e0 : V15 m ρ c main_v83 = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := agg3 m ρ c
  have e1 : ∀ j : Fin 64, (V15 m ρ c main_v84 (ix2 (0 : Fin 1) j) : EReal) = ((m ((c : Thread nD τ).loc main_arg9)) (ix1 j) : EReal) := brow3 m ρ c
  rw [e0]
  exact congrArg (fun v : Fin 64 → EReal => unitRow v q)
    (funext fun j => congrArg (fun y : EReal => (fun a b : EReal => a + b) ((val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 r j)) y) (e1 j))

end Cert.KernelIdeal.Chain

end
-- ==== Proof.LibAfterSplit.lean ====
/-
  The contents after a line of host operations, split at a position.

  `StableHlo.after l V` folds the operations' results over the contents `V`, first operation first. Folding a
  concatenation is folding the second part over what the first part leaves; so a line can be read in stretches: the first
  `k` operations, then the rest over their outcome. For any signature and any values.
-/
import Idealize.ShloMosaic.Lib.StableHlo.Run

noncomputable section

namespace Cert.AfterSplit

open Idealize.ShloMosaic Idealize.ShloMosaic.StableHlo

variable {τ : Topo} {sig : RefSig} {Val : EltTy → Type}

/-- Two lines one after the other: the second over what the first leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line read as its first `k` operations and then the rest. -/
theorem after_take_drop (l : List (HloOp τ sig Val)) (k : Nat) (V : Valuation τ sig Val) :
    after l V = after (l.drop k) (after (l.take k) V) := by
  rw [← after_append, List.take_append_drop]

end Cert.AfterSplit

end
-- ==== Proof.RefRead.lean ====
/-
  The run of the reference program, read stretch by stretch.
  The program is a line of 120 host operations; what the result buffer holds after the run is the fold of the
  operations' results over the contents at launch. The fold over a concatenation is the fold of the second part over
  what the first part leaves, so the line is read in ten stretches: the two rows of the edge list with the nodes' own
  indices appended; the nodes' degrees and their inverse square roots; the edges' factors; and then, layer by layer, a
  dense stage followed by an aggregation over the edges, down to the division of every row by its clipped length.
  Each stretch is read once, at the one buffer later stretches read from it, as the corresponding stage of the
  stage-by-stage reading of the program applied to the program's arguments; a buffer that a stretch does not write
  keeps what it held. Chaining the ten readings gives the result buffer as the last stage of the arguments.
-/
import proofs.«152028_j26912265077117_1_alg».proof.Proof.RefRunP
import proofs.«152028_j26912265077117_1_alg».proof.Proof.RefReadP
import proofs.«152028_j26912265077117_1_alg».proof.Proof.LibAfterSplit

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The stretch of `n` operations that starts after the first `k`. -/
abbrev stretch (k n : Nat) : List (HloOp τ sig (Elt F)) := ((ops (F := F)).drop k).take n

/-- The contents of the device's buffers after the first `k` operations, from the contents at launch. -/
def R (k : Nat) (m : (ℓ : Loc nD τ sig) → Buf (Elt F) ℓ) (c : Dev nD) : Valuation τ sig (Elt F) :=
  after ((ops (F := F)).take k) (launchContents m c)

/-- After `k + n` operations the buffers hold what the stretch of `n` operations leaves of what they held after `k`. -/
theorem R_step (k n : Nat) (m : (ℓ : Loc nD τ sig) → Buf (Elt F) ℓ) (c : Dev nD) :
    R (F := F) (k + n) m c = after (stretch (F := F) k n) (R k m c) := by
  unfold R stretch
  rw [List.take_add, Cert.AfterSplit.after_append]

/-- Before any operation a buffer holds its contents at launch. -/
theorem R0 (m : (ℓ : Loc nD τ sig) → Buf (Elt F) ℓ) (c : Dev nD) (r : Ref sig .tc) :
    R (F := F) 0 m c (Proc.devRef .tc r) = m ((c.tc : Thread nD τ).loc r) := rfl

/-- Writes a stretch out as the literal list of its operations. -/
macro "open_stretch" : tactic => `(tactic|
  simp only [stretch, ops, List.drop_succ_cons, List.drop_zero, List.take_succ_cons, List.take_zero])

/-! ## Each stretch at the buffer later stretches read

The contents `V` before the stretch are arbitrary; what the stretch reads of them is given by hypotheses. -/

set_option maxRecDepth 16384 in
set_option maxHeartbeats 4000000 in
/-- The first stretch: the edge list's source row, flattened, with the nodes' own indices appended. -/
theorem p1_v3 (V : Valuation τ sig (Elt F)) {x1 : (⟨S2x1600000, .i32⟩ : BufTy).Contents (Elt F)}
    (a1 : V (Proc.devRef .tc main_arg1) = x1) :
    after (stretch (F := F) 0 7) V (Proc.devRef .tc main_v3) = val_main_v3 (F := F) x1 := by
  open_stretch
  after_results
  rw [a1]
  rfl

set_option maxRecDepth 16384 in
set_option maxHeartbeats 4000000 in
/-- The first stretch: the edge list's destination row, flattened, with the nodes' own indices appended. -/
theorem p1_v6 (V : Valuation τ sig (Elt F)) {x1 : (⟨S2x1600000, .i32⟩ : BufTy).Contents (Elt F)}
    (a1 : V (Proc.devRef .tc main_arg1) = x1) :
    after (stretch (F := F) 0 7) V (Proc.devRef .tc main_v6) = val_main_v6 (F := F) x1 := by
  open_stretch
  after_results
  rw [a1]
  rfl

set_option maxRecDepth 16384 in
set_option maxHeartbeats 4000000 in
/-- The second stretch: the degree of every node (ones scattered along the destinations), and its inverse square root where the degree is positive, zero elsewhere. -/
theorem p2_v14 (V : Valuation τ sig (Elt F)) {x1 : (⟨S2x1600000, .i32⟩ : BufTy).Contents (Elt F)}
    (h6 : V (Proc.devRef .tc main_v6) = val_main_v6 (F := F) x1) :
    after (stretch (F := F) 7 14) V (Proc.devRef .tc main_v14) = val_main_v14 (F := F) x1 := by
  open_stretch
  after_results
  rw [h6]
  rfl

set_option maxRecDepth 16384 in
set_option maxHeartbeats 4000000 in
/-- The third stretch: the factor of every edge, the product of the two end nodes' inverse square-root degrees, each gathered at the end's index (a negative index wrapped first). -/
theorem p3_v29 (V : Valuation τ sig (Elt F)) {x1 : (⟨S2x1600000, .i32⟩ : BufTy).Contents (Elt F)}
    (h3 : V (Proc.devRef .tc main_v3) = val_main_v3 (F := F) x1) (h6 : V (Proc.devRef .tc main_v6) = val_main_v6 (F := F) x1) (h14 : V (Proc.devRef .tc main_v14) = val_main_v14 (F := F) x1) :
    after (stretch (F := F) 21 19) V (Proc.devRef .tc main_v29) = val_main_v29 (F := F) x1 := by
  open_stretch
  after_results
  rw [h3, h6, h14]
  rfl

set_option maxRecDepth 16384 in
set_option maxHeartbeats 4000000 in
/-- The first layer (features times weights, plus the bias) and the second layer's product with its weights. -/
theorem l1_v34 (V : Valuation τ sig (Elt F)) {x0 : (⟨S100000x128, .f32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)}
    (a0 : V (Proc.devRef .tc main_arg0) = x0) (a2 : V (Proc.devRef .tc main_arg2) = x2) (a3 : V (Proc.devRef .tc main_arg3) = x3) (a4 : V (Proc.devRef .tc main_arg4) = x4) :
    after (stretch (F := F) 40 5) V (Proc.devRef .tc main_v34) = val_main_v34 (F := F) x0 x2 x3 x4 := by
  open_stretch
  after_results
  rw [a0, a2, a3, a4]
  rfl

set_option maxRecDepth 16384 in
set_option maxHeartbeats 4000000 in
/-- The first aggregation: the rows gathered at the edges' sources, scaled by the edges' factors, summed into the edges' destinations. -/
theorem a1_v47 (V : Valuation τ sig (Elt F)) {x0 : (⟨S100000x128, .f32⟩ : BufTy).Contents (Elt F)} {x1 : (⟨S2x1600000, .i32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)}
    (h3 : V (Proc.devRef .tc main_v3) = val_main_v3 (F := F) x1) (h6 : V (Proc.devRef .tc main_v6) = val_main_v6 (F := F) x1) (h29 : V (Proc.devRef .tc main_v29) = val_main_v29 (F := F) x1) (h34 : V (Proc.devRef .tc main_v34) = val_main_v34 (F := F) x0 x2 x3 x4) :
    after (stretch (F := F) 45 16) V (Proc.devRef .tc main_v47) = val_main_v47 (F := F) x0 x1 x2 x3 x4 := by
  open_stretch
  after_results
  rw [h3, h6, h29, h34]
  rfl

set_option maxRecDepth 16384 in
set_option maxHeartbeats 4000000 in
/-- The second layer's bias and positive part, and the third layer's product with its weights. -/
theorem l2_v52 (V : Valuation τ sig (Elt F)) {x0 : (⟨S100000x128, .f32⟩ : BufTy).Contents (Elt F)} {x1 : (⟨S2x1600000, .i32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)} {x5 : (⟨S64, .f32⟩ : BufTy).Contents (Elt F)} {x6 : (⟨S64x64, .f32⟩ : BufTy).Contents (Elt F)}
    (h47 : V (Proc.devRef .tc main_v47) = val_main_v47 (F := F) x0 x1 x2 x3 x4) (a5 : V (Proc.devRef .tc main_arg5) = x5) (a6 : V (Proc.devRef .tc main_arg6) = x6) :
    after (stretch (F := F) 61 7) V (Proc.devRef .tc main_v52) = val_main_v52 (F := F) x0 x1 x2 x3 x4 x5 x6 := by
  open_stretch
  after_results
  rw [h47, a5, a6]
  rfl

set_option maxRecDepth 16384 in
set_option maxHeartbeats 4000000 in
/-- The second aggregation, over the same edges and factors. -/
theorem a2_v65 (V : Valuation τ sig (Elt F)) {x0 : (⟨S100000x128, .f32⟩ : BufTy).Contents (Elt F)} {x1 : (⟨S2x1600000, .i32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)} {x5 : (⟨S64, .f32⟩ : BufTy).Contents (Elt F)} {x6 : (⟨S64x64, .f32⟩ : BufTy).Contents (Elt F)}
    (h3 : V (Proc.devRef .tc main_v3) = val_main_v3 (F := F) x1) (h6 : V (Proc.devRef .tc main_v6) = val_main_v6 (F := F) x1) (h29 : V (Proc.devRef .tc main_v29) = val_main_v29 (F := F) x1) (h52 : V (Proc.devRef .tc main_v52) = val_main_v52 (F := F) x0 x1 x2 x3 x4 x5 x6) :
    after (stretch (F := F) 68 16) V (Proc.devRef .tc main_v65) = val_main_v65 (F := F) x0 x1 x2 x3 x4 x5 x6 := by
  open_stretch
  after_results
  rw [h3, h6, h29, h52]
  rfl

set_option maxRecDepth 16384 in
set_option maxHeartbeats 4000000 in
/-- The third layer's bias and positive part, and the last layer's product with its weights. -/
theorem l3_v70 (V : Valuation τ sig (Elt F)) {x0 : (⟨S100000x128, .f32⟩ : BufTy).Contents (Elt F)} {x1 : (⟨S2x1600000, .i32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)} {x5 : (⟨S64, .f32⟩ : BufTy).Contents (Elt F)} {x6 : (⟨S64x64, .f32⟩ : BufTy).Contents (Elt F)} {x7 : (⟨S64, .f32⟩ : BufTy).Contents (Elt F)} {x8 : (⟨S64x64, .f32⟩ : BufTy).Contents (Elt F)}
    (h65 : V (Proc.devRef .tc main_v65) = val_main_v65 (F := F) x0 x1 x2 x3 x4 x5 x6) (a7 : V (Proc.devRef .tc main_arg7) = x7) (a8 : V (Proc.devRef .tc main_arg8) = x8) :
    after (stretch (F := F) 84 7) V (Proc.devRef .tc main_v70) = val_main_v70 (F := F) x0 x1 x2 x3 x4 x5 x6 x7 x8 := by
  open_stretch
  after_results
  rw [h65, a7, a8]
  rfl

set_option maxRecDepth 16384 in
set_option maxHeartbeats 4000000 in
/-- The third aggregation, over the same edges and factors. -/
theorem a3_v83 (V : Valuation τ sig (Elt F)) {x0 : (⟨S100000x128, .f32⟩ : BufTy).Contents (Elt F)} {x1 : (⟨S2x1600000, .i32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)} {x5 : (⟨S64, .f32⟩ : BufTy).Contents (Elt F)} {x6 : (⟨S64x64, .f32⟩ : BufTy).Contents (Elt F)} {x7 : (⟨S64, .f32⟩ : BufTy).Contents (Elt F)} {x8 : (⟨S64x64, .f32⟩ : BufTy).Contents (Elt F)}
    (h3 : V (Proc.devRef .tc main_v3) = val_main_v3 (F := F) x1) (h6 : V (Proc.devRef .tc main_v6) = val_main_v6 (F := F) x1) (h29 : V (Proc.devRef .tc main_v29) = val_main_v29 (F := F) x1) (h70 : V (Proc.devRef .tc main_v70) = val_main_v70 (F := F) x0 x1 x2 x3 x4 x5 x6 x7 x8) :
    after (stretch (F := F) 91 16) V (Proc.devRef .tc main_v83) = val_main_v83 (F := F) x0 x1 x2 x3 x4 x5 x6 x7 x8 := by
  open_stretch
  after_results
  rw [h3, h6, h29, h70]
  rfl

set_option maxRecDepth 16384 in
set_option maxHeartbeats 4000000 in
/-- The last stretch: the last bias, and every row divided by its Euclidean length clipped below. -/
theorem l4_v91 (V : Valuation τ sig (Elt F)) {x0 : (⟨S100000x128, .f32⟩ : BufTy).Contents (Elt F)} {x1 : (⟨S2x1600000, .i32⟩ : BufTy).Contents (Elt F)} {x2 : (⟨S128x64, .f32⟩ : BufTy).Contents (Elt F)} {x3 : (⟨S64, .f32⟩ : BufTy).Contents (Elt F)} {x4 : (⟨S64x64, .f32⟩ : BufTy).Contents (Elt F)} {x5 : (⟨S64, .f32⟩ : BufTy).Contents (Elt F)} {x6 : (⟨S64x64, .f32⟩ : BufTy).Contents (Elt F)} {x7 : (⟨S64, .f32⟩ : BufTy).Contents (Elt F)} {x8 : (⟨S64x64, .f32⟩ : BufTy).Contents (Elt F)} {x9 : (⟨S64, .f32⟩ : BufTy).Contents (Elt F)}
    (h83 : V (Proc.devRef .tc main_v83) = val_main_v83 (F := F) x0 x1 x2 x3 x4 x5 x6 x7 x8) (a9 : V (Proc.devRef .tc main_arg9) = x9) :
    after (stretch (F := F) 107 13) V (Proc.devRef .tc main_v91) = val_main_v91 (F := F) x0 x1 x2 x3 x4 x5 x6 x7 x8 x9 := by
  open_stretch
  after_results
  rw [h83, a9]
  rfl

/-! ## What a stretch does not write it keeps

The two index rows, the edges' factors and the arguments are read long after they are written; between the writing and
the reading no operation writes them. -/

set_option maxRecDepth 16384 in
set_option maxHeartbeats 4000000 in
theorem keep_7_14_v3 (V : Valuation τ sig (Elt F)) :
    after (stretch (F := F) 7 14) V (Proc.devRef .tc main_v3) = V (Proc.devRef .tc main_v3) := by
  open_stretch
  after_results_simp <;> rfl

set_option maxRecDepth 16384 in
set_option maxHeartbeats 4000000 in
theorem keep_7_38_v3 (V : Valuation τ sig (Elt F)) :
    after (stretch (F := F) 7 38) V (Proc.devRef .tc main_v3) = V (Proc.devRef .tc main_v3) := by
  open_stretch
  after_results_simp <;> rfl

set_option maxRecDepth 16384 in
set_option maxHeartbeats 4000000 in
theorem keep_7_61_v3 (V : Valuation τ sig (Elt F)) :
    after (stretch (F := F) 7 61) V (Proc.devRef .tc main_v3) = V (Proc.devRef .tc main_v3) := by
  open_stretch
  after_results_simp <;> rfl

set_option maxRecDepth 16384 in
set_option maxHeartbeats 4000000 in
theorem keep_7_84_v3 (V : Valuation τ sig (Elt F)) :
    after (stretch (F := F) 7 84) V (Proc.devRef .tc main_v3) = V (Proc.devRef .tc main_v3) := by
  open_stretch
  after_results_simp <;> rfl

set_option maxRecDepth 16384 in
set_option maxHeartbeats 4000000 in
theorem keep_7_14_v6 (V : Valuation τ sig (Elt F)) :
    after (stretch (F := F) 7 14) V (Proc.devRef .tc main_v6) = V (Proc.devRef .tc main_v6) := by
  open_stretch
  after_results_simp <;> rfl

set_option maxRecDepth 16384 in
set_option maxHeartbeats 4000000 in
theorem keep_7_38_v6 (V : Valuation τ sig (Elt F)) :
    after (stretch (F := F) 7 38) V (Proc.devRef .tc main_v6) = V (Proc.devRef .tc main_v6) := by
  open_stretch
  after_results_simp <;> rfl

set_option maxRecDepth 16384 in
set_option maxHeartbeats 4000000 in
theorem keep_7_61_v6 (V : Valuation τ sig (Elt F)) :
    after (stretch (F := F) 7 61) V (Proc.devRef .tc main_v6) = V (Proc.devRef .tc main_v6) := by
  open_stretch
  after_results_simp <;> rfl

set_option maxRecDepth 16384 in
set_option maxHeartbeats 4000000 in
theorem keep_7_84_v6 (V : Valuation τ sig (Elt F)) :
    after (stretch (F := F) 7 84) V (Proc.devRef .tc main_v6) = V (Proc.devRef .tc main_v6) := by
  open_stretch
  after_results_simp <;> rfl

set_option maxRecDepth 16384 in
set_option maxHeartbeats 4000000 in
theorem keep_40_5_v29 (V : Valuation τ sig (Elt F)) :
    after (stretch (F := F) 40 5) V (Proc.devRef .tc main_v29) = V (Proc.devRef .tc main_v29) := by
  open_stretch
  after_results_simp <;> rfl

set_option maxRecDepth 16384 in
set_option maxHeartbeats 4000000 in
theorem keep_40_28_v29 (V : Valuation τ sig (Elt F)) :
    after (stretch (F := F) 40 28) V (Proc.devRef .tc main_v29) = V (Proc.devRef .tc main_v29) := by
  open_stretch
  after_results_simp <;> rfl

set_option maxRecDepth 16384 in
set_option maxHeartbeats 4000000 in
theorem keep_40_51_v29 (V : Valuation τ sig (Elt F)) :
    after (stretch (F := F) 40 51) V (Proc.devRef .tc main_v29) = V (Proc.devRef .tc main_v29) := by
  open_stretch
  after_results_simp <;> rfl

set_option maxRecDepth 16384 in
set_option maxHeartbeats 4000000 in
theorem keep_0_40_arg0 (V : Valuation τ sig (Elt F)) :
    after (stretch (F := F) 0 40) V (Proc.devRef .tc main_arg0) = V (Proc.devRef .tc main_arg0) := by
  open_stretch
  after_results_simp <;> rfl

set_option maxRecDepth 16384 in
set_option maxHeartbeats 4000000 in
theorem keep_0_40_arg2 (V : Valuation τ sig (Elt F)) :
    after (stretch (F := F) 0 40) V (Proc.devRef .tc main_arg2) = V (Proc.devRef .tc main_arg2) := by
  open_stretch
  after_results_simp <;> rfl

set_option maxRecDepth 16384 in
set_option maxHeartbeats 4000000 in
theorem keep_0_40_arg3 (V : Valuation τ sig (Elt F)) :
    after (stretch (F := F) 0 40) V (Proc.devRef .tc main_arg3) = V (Proc.devRef .tc main_arg3) := by
  open_stretch
  after_results_simp <;> rfl

set_option maxRecDepth 16384 in
set_option maxHeartbeats 4000000 in
theorem keep_0_40_arg4 (V : Valuation τ sig (Elt F)) :
    after (stretch (F := F) 0 40) V (Proc.devRef .tc main_arg4) = V (Proc.devRef .tc main_arg4) := by
  open_stretch
  after_results_simp <;> rfl

set_option maxRecDepth 16384 in
set_option maxHeartbeats 4000000 in
theorem keep_0_61_arg5 (V : Valuation τ sig (Elt F)) :
    after (stretch (F := F) 0 61) V (Proc.devRef .tc main_arg5) = V (Proc.devRef .tc main_arg5) := by
  open_stretch
  after_results_simp <;> rfl

set_option maxRecDepth 16384 in
set_option maxHeartbeats 4000000 in
theorem keep_0_61_arg6 (V : Valuation τ sig (Elt F)) :
    after (stretch (F := F) 0 61) V (Proc.devRef .tc main_arg6) = V (Proc.devRef .tc main_arg6) := by
  open_stretch
  after_results_simp <;> rfl

set_option maxRecDepth 16384 in
set_option maxHeartbeats 4000000 in
theorem keep_0_84_arg7 (V : Valuation τ sig (Elt F)) :
    after (stretch (F := F) 0 84) V (Proc.devRef .tc main_arg7) = V (Proc.devRef .tc main_arg7) := by
  open_stretch
  after_results_simp <;> rfl

set_option maxRecDepth 16384 in
set_option maxHeartbeats 4000000 in
theorem keep_0_84_arg8 (V : Valuation τ sig (Elt F)) :
    after (stretch (F := F) 0 84) V (Proc.devRef .tc main_arg8) = V (Proc.devRef .tc main_arg8) := by
  open_stretch
  after_results_simp <;> rfl

set_option maxRecDepth 16384 in
set_option maxHeartbeats 4000000 in
theorem keep_0_107_arg9 (V : Valuation τ sig (Elt F)) :
    after (stretch (F := F) 0 107) V (Proc.devRef .tc main_arg9) = V (Proc.devRef .tc main_arg9) := by
  open_stretch
  after_results_simp <;> rfl

/-! ## The buffers at the stretches' boundaries, from the contents at launch -/

section Boundaries

variable (m : (ℓ : Loc nD τ sig) → Buf (Elt F) ℓ) (c : Dev nD)

theorem b7_v3 : R (F := F) 7 m c (Proc.devRef .tc main_v3) = val_main_v3 (F := F) (m ((c.tc : Thread nD τ).loc main_arg1)) :=
  (congrFun (R_step 0 7 m c) _).trans (p1_v3 _ (R0 m c main_arg1))

theorem b7_v6 : R (F := F) 7 m c (Proc.devRef .tc main_v6) = val_main_v6 (F := F) (m ((c.tc : Thread nD τ).loc main_arg1)) :=
  (congrFun (R_step 0 7 m c) _).trans (p1_v6 _ (R0 m c main_arg1))

theorem b21_v14 : R (F := F) 21 m c (Proc.devRef .tc main_v14) = val_main_v14 (F := F) (m ((c.tc : Thread nD τ).loc main_arg1)) :=
  (congrFun (R_step 7 14 m c) _).trans (p2_v14 _ (b7_v6 m c))

theorem b21_v3 : R (F := F) 21 m c (Proc.devRef .tc main_v3) = val_main_v3 (F := F) (m ((c.tc : Thread nD τ).loc main_arg1)) :=
  (congrFun (R_step 7 14 m c) _).trans ((keep_7_14_v3 _).trans (b7_v3 m c))

theorem b21_v6 : R (F := F) 21 m c (Proc.devRef .tc main_v6) = val_main_v6 (F := F) (m ((c.tc : Thread nD τ).loc main_arg1)) :=
  (congrFun (R_step 7 14 m c) _).trans ((keep_7_14_v6 _).trans (b7_v6 m c))

theorem b40_v29 : R (F := F) 40 m c (Proc.devRef .tc main_v29) = val_main_v29 (F := F) (m ((c.tc : Thread nD τ).loc main_arg1)) :=
  (congrFun (R_step 21 19 m c) _).trans (p3_v29 _ (b21_v3 m c) (b21_v6 m c) (b21_v14 m c))

theorem b40_arg0 : R (F := F) 40 m c (Proc.devRef .tc main_arg0) = (m ((c.tc : Thread nD τ).loc main_arg0)) :=
  (congrFun (R_step 0 40 m c) _).trans ((keep_0_40_arg0 _).trans (R0 m c main_arg0))

theorem b40_arg2 : R (F := F) 40 m c (Proc.devRef .tc main_arg2) = (m ((c.tc : Thread nD τ).loc main_arg2)) :=
  (congrFun (R_step 0 40 m c) _).trans ((keep_0_40_arg2 _).trans (R0 m c main_arg2))

theorem b40_arg3 : R (F := F) 40 m c (Proc.devRef .tc main_arg3) = (m ((c.tc : Thread nD τ).loc main_arg3)) :=
  (congrFun (R_step 0 40 m c) _).trans ((keep_0_40_arg3 _).trans (R0 m c main_arg3))

theorem b40_arg4 : R (F := F) 40 m c (Proc.devRef .tc main_arg4) = (m ((c.tc : Thread nD τ).loc main_arg4)) :=
  (congrFun (R_step 0 40 m c) _).trans ((keep_0_40_arg4 _).trans (R0 m c main_arg4))

theorem b45_v34 : R (F := F) 45 m c (Proc.devRef .tc main_v34) = val_main_v34 (F := F) (m ((c.tc : Thread nD τ).loc main_arg0)) (m ((c.tc : Thread nD τ).loc main_arg2)) (m ((c.tc : Thread nD τ).loc main_arg3)) (m ((c.tc : Thread nD τ).loc main_arg4)) :=
  (congrFun (R_step 40 5 m c) _).trans (l1_v34 _ (b40_arg0 m c) (b40_arg2 m c) (b40_arg3 m c) (b40_arg4 m c))

theorem b45_v3 : R (F := F) 45 m c (Proc.devRef .tc main_v3) = val_main_v3 (F := F) (m ((c.tc : Thread nD τ).loc main_arg1)) :=
  (congrFun (R_step 7 38 m c) _).trans ((keep_7_38_v3 _).trans (b7_v3 m c))

theorem b45_v6 : R (F := F) 45 m c (Proc.devRef .tc main_v6) = val_main_v6 (F := F) (m ((c.tc : Thread nD τ).loc main_arg1)) :=
  (congrFun (R_step 7 38 m c) _).trans ((keep_7_38_v6 _).trans (b7_v6 m c))

theorem b45_v29 : R (F := F) 45 m c (Proc.devRef .tc main_v29) = val_main_v29 (F := F) (m ((c.tc : Thread nD τ).loc main_arg1)) :=
  (congrFun (R_step 40 5 m c) _).trans ((keep_40_5_v29 _).trans (b40_v29 m c))

theorem b61_v47 : R (F := F) 61 m c (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (congrFun (R_step 45 16 m c) _).trans (a1_v47 _ (b45_v3 m c) (b45_v6 m c) (b45_v29 m c) (b45_v34 m c))

theorem b61_arg5 : R (F := F) 61 m c (Proc.devRef .tc main_arg5) = (m ((c.tc : Thread nD τ).loc main_arg5)) :=
  (congrFun (R_step 0 61 m c) _).trans ((keep_0_61_arg5 _).trans (R0 m c main_arg5))

theorem b61_arg6 : R (F := F) 61 m c (Proc.devRef .tc main_arg6) = (m ((c.tc : Thread nD τ).loc main_arg6)) :=
  (congrFun (R_step 0 61 m c) _).trans ((keep_0_61_arg6 _).trans (R0 m c main_arg6))

theorem b68_v52 : R (F := F) 68 m c (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (R_step 61 7 m c) _).trans (l2_v52 _ (b61_v47 m c) (b61_arg5 m c) (b61_arg6 m c))

theorem b68_v3 : R (F := F) 68 m c (Proc.devRef .tc main_v3) = val_main_v3 (F := F) (m ((c.tc : Thread nD τ).loc main_arg1)) :=
  (congrFun (R_step 7 61 m c) _).trans ((keep_7_61_v3 _).trans (b7_v3 m c))

theorem b68_v6 : R (F := F) 68 m c (Proc.devRef .tc main_v6) = val_main_v6 (F := F) (m ((c.tc : Thread nD τ).loc main_arg1)) :=
  (congrFun (R_step 7 61 m c) _).trans ((keep_7_61_v6 _).trans (b7_v6 m c))

theorem b68_v29 : R (F := F) 68 m c (Proc.devRef .tc main_v29) = val_main_v29 (F := F) (m ((c.tc : Thread nD τ).loc main_arg1)) :=
  (congrFun (R_step 40 28 m c) _).trans ((keep_40_28_v29 _).trans (b40_v29 m c))

theorem b84_v65 : R (F := F) 84 m c (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (R_step 68 16 m c) _).trans (a2_v65 _ (b68_v3 m c) (b68_v6 m c) (b68_v29 m c) (b68_v52 m c))

theorem b84_arg7 : R (F := F) 84 m c (Proc.devRef .tc main_arg7) = (m ((c.tc : Thread nD τ).loc main_arg7)) :=
  (congrFun (R_step 0 84 m c) _).trans ((keep_0_84_arg7 _).trans (R0 m c main_arg7))

theorem b84_arg8 : R (F := F) 84 m c (Proc.devRef .tc main_arg8) = (m ((c.tc : Thread nD τ).loc main_arg8)) :=
  (congrFun (R_step 0 84 m c) _).trans ((keep_0_84_arg8 _).trans (R0 m c main_arg8))

theorem b91_v70 : R (F := F) 91 m c (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (congrFun (R_step 84 7 m c) _).trans (l3_v70 _ (b84_v65 m c) (b84_arg7 m c) (b84_arg8 m c))

theorem b91_v3 : R (F := F) 91 m c (Proc.devRef .tc main_v3) = val_main_v3 (F := F) (m ((c.tc : Thread nD τ).loc main_arg1)) :=
  (congrFun (R_step 7 84 m c) _).trans ((keep_7_84_v3 _).trans (b7_v3 m c))

theorem b91_v6 : R (F := F) 91 m c (Proc.devRef .tc main_v6) = val_main_v6 (F := F) (m ((c.tc : Thread nD τ).loc main_arg1)) :=
  (congrFun (R_step 7 84 m c) _).trans ((keep_7_84_v6 _).trans (b7_v6 m c))

theorem b91_v29 : R (F := F) 91 m c (Proc.devRef .tc main_v29) = val_main_v29 (F := F) (m ((c.tc : Thread nD τ).loc main_arg1)) :=
  (congrFun (R_step 40 51 m c) _).trans ((keep_40_51_v29 _).trans (b40_v29 m c))

theorem b107_v83 : R (F := F) 107 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (congrFun (R_step 91 16 m c) _).trans (a3_v83 _ (b91_v3 m c) (b91_v6 m c) (b91_v29 m c) (b91_v70 m c))

theorem b107_arg9 : R (F := F) 107 m c (Proc.devRef .tc main_arg9) = (m ((c.tc : Thread nD τ).loc main_arg9)) :=
  (congrFun (R_step 0 107 m c) _).trans ((keep_0_107_arg9 _).trans (R0 m c main_arg9))

theorem b120_v91 : R (F := F) 120 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (congrFun (R_step 107 13 m c) _).trans (l4_v91 _ (b107_v83 m c) (b107_arg9 m c))

end Boundaries

/-! ## The result -/

/-- For any float values: what the result buffer holds after the run is the program's last stage of the arguments. -/
theorem result_eq_any (m : (ℓ : Loc nD τ sig) → Buf (Elt F) ℓ) (c : Dev nD) :
    res_main_v91 (F := F) m c = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h : res_main_v91 (F := F) m c = R (F := F) 120 m c (Proc.devRef .tc main_v91) := by
    unfold res_main_v91 R
    rw [List.take_of_length_le (l := (ops (F := F))) (i := 120) (Nat.le_of_eq rfl)]
  exact h.trans (b120_v91 m c)

/-- On the extended reals: what the result buffer holds after the run is the program's last stage of the arguments. -/
theorem result_eq (m : (ℓ : Loc nD τ sig) → Buf (Elt Ideal) ℓ) (c : Dev nD) :
    res_main_v91 (F := Ideal) m c = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  result_eq_any m c

end Cert.ReferenceIdeal.RefRead

end
-- ==== Proof.Claims.lean ====
/-
  The five claims of the certificate.
  The three frames: the word-level kernel and the idealized kernel by the generated frame theorem, the idealized
  reference by its run with the result dropped. The idealization rewrote nothing, so "preserves" is trivial.
  The value claim: the idealized kernel's result array is the reference's result stage of the kernel's own
  arguments (the chain of boundary facts), the reference's run ends at that stage of its own arguments (its run,
  read stretch by stretch), and the two argument lists agree by hypothesis. No finiteness of the inputs is
  used: both programs apply the same exact operations to the same extended reals in the same arrangement,
  up to the order of a dot product's sum, a zero bias, and changes of float format that are the identity.
-/
import proofs.«152028_j26912265077117_1_alg».proof.Defs
import proofs.«152028_j26912265077117_1_alg».proof.Proof.Gen.Kernel.Frame
import proofs.«152028_j26912265077117_1_alg».proof.Proof.Gen.KernelIdeal.Frame
import proofs.«152028_j26912265077117_1_alg».proof.Proof.Gen.ReferenceIdeal
import proofs.«152028_j26912265077117_1_alg».proof.Proof.Gen.Pre_finite_inputs
import proofs.«152028_j26912265077117_1_alg».proof.Proof.RunAll
import proofs.«152028_j26912265077117_1_alg».proof.Proof.ChainOut
import proofs.«152028_j26912265077117_1_alg».proof.Proof.RefRunP
import proofs.«152028_j26912265077117_1_alg».proof.Proof.RefReadP
import proofs.«152028_j26912265077117_1_alg».proof.Proof.RefRead

set_option maxRecDepth 16384

noncomputable section

namespace Cert.Proof.Claims

open Idealize.ShloMosaic Idealize.ShloMosaic.TcCoe Idealize.SL.Sem

/-- The word-level kernel terminates without fault and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The two idealized programs, run from memories that agree on the arguments, end with the same result array:
    the kernel's last boundary holds the reference's result stage of the kernel's arguments, the reference's
    run ends at its result stage of its own arguments, and the arguments agree. -/
theorem algebraic :
    Cert.algebraic_KernelIdeal_ReferenceIdeal := by
  intro m ρ m' ρ' _ hagree
  refine ⟨fun c => Cert.KernelIdeal.Gen.W16 m ρ c (Proc.devRef .tc Cert.KernelIdeal.main_v85),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.RefRead.result_eq m' c, a0, a1, a2, a3, a4, a5, a6, a7, a8, a9]
  exact (Cert.KernelIdeal.Chain.out3 m ρ c).symm

end Cert.Proof.Claims

end
-- ==== Proof.lean ====
/-
  A three-layer graph-convolution network — a feature layer, three normalised graph convolutions with a bias and a
  positive part between them, and rows scaled to unit length at the end — computed by seven tiled kernel launches
  among host gathers and scatter-adds, against its plain reference: the two agree on the extended reals, entry by
  entry, from any memories that agree on the arguments.
  The modules: the four entry-wise functions every dense stage computes (Spec); the kernel's payloads at an index
  (KernelPayloads) and each launch's output array as one function of its input arrays (Region0 … Region6); the
  kernel's run with every buffer named (RunAll), which buffers survive which boundaries (Keep), the edge list's
  derived arrays (KPrelude) and the chain of boundary facts ending at the result array (Chain, ChainOut); the
  reference's dense stages at an index (RefStages, RefStagesNorm) and its run read stretch by stretch (RefRead);
  the five claims (Claims).
-/
import proofs.«152028_j26912265077117_1_alg».proof.Defs
import proofs.«152028_j26912265077117_1_alg».proof.Proof.Gen.Kernel
import proofs.«152028_j26912265077117_1_alg».proof.Proof.Gen.Kernel.Skeleton
import proofs.«152028_j26912265077117_1_alg».proof.Proof.Gen.Kernel.Launch
import proofs.«152028_j26912265077117_1_alg».proof.Proof.Gen.Kernel.Points
import proofs.«152028_j26912265077117_1_alg».proof.Proof.Gen.Kernel.Frame
import proofs.«152028_j26912265077117_1_alg».proof.Proof.Gen.KernelIdeal
import proofs.«152028_j26912265077117_1_alg».proof.Proof.Gen.KernelIdeal.Skeleton
import proofs.«152028_j26912265077117_1_alg».proof.Proof.Gen.KernelIdeal.Launch
import proofs.«152028_j26912265077117_1_alg».proof.Proof.Gen.KernelIdeal.Points
import proofs.«152028_j26912265077117_1_alg».proof.Proof.Gen.KernelIdeal.Frame
import proofs.«152028_j26912265077117_1_alg».proof.Proof.Gen.ReferenceIdeal
import proofs.«152028_j26912265077117_1_alg».proof.Proof.Gen.Pre_finite_inputs
import proofs.«152028_j26912265077117_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial, Claims.algebraic⟩

end Cert.Proof

end
